-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8192x512 .f32) (main_arg1 : FVec F S8192x8192 .f32) (main_arg2 : FVec F S512x512 .f32) (main_arg3 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S8192x1 : Shape := ⟨2, ![8192, 1]⟩
abbrev S1024x2048 : Shape := ⟨2, ![1024, 2048]⟩
abbrev S1024x1 : Shape := ⟨2, ![1024, 1]⟩
abbrev S1024 : Shape := ⟨1, ![1024]⟩
abbrev S_ : Shape := ⟨0, ![]⟩
abbrev S1x512 : Shape := ⟨2, ![1, 512]⟩
abbrev S512x2048 : Shape := ⟨2, ![512, 2048]⟩
abbrev S512x1 : Shape := ⟨2, ![512, 1]⟩
abbrev S2048x512 : Shape := ⟨2, ![2048, 512]⟩

abbrev nBuf : Space → Nat
  | .hbm => 18
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S8192x1, .f32⟩
  | .hbm, ⟨5, _⟩ => ⟨S_, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x512, .f32⟩
  | .hbm, ⟨12, _⟩ => ⟨S8192x512, .f32⟩
  | .hbm, ⟨13, _⟩ => ⟨S512x512, .f32⟩
  | .hbm, ⟨14, _⟩ => ⟨S8192x512, .f32⟩
  | .hbm, ⟨15, _⟩ => ⟨S8192x512, .bf16⟩
  | .hbm, ⟨16, _⟩ => ⟨S1x512, .f32⟩
  | .hbm, ⟨17, _⟩ => ⟨S8192x512, .f32⟩
  | .local _ .vmem, ⟨0, _⟩ => ⟨S1024x2048, .f32⟩
  | .local _ .vmem, ⟨1, _⟩ => ⟨S1024x2048, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S512x2048, .f32⟩
  | .local _ .vmem, ⟨6, _⟩ => ⟨S512x2048, .f32⟩
  | .local _ .vmem, ⟨7, _⟩ => ⟨S8192x512, .bf16⟩
  | .local _ .vmem, ⟨8, _⟩ => ⟨S512x1, .f32⟩
  | .local _ .vmem, ⟨9, _⟩ => ⟨S512x1, .f32⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![16, 4], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  transposes_S512x512_S512x512_1_0 : S512x512.Transposes [1, 0] S512x512
  bitsLt_bf16_f32 : FTy.bits .bf16 < FTy.bits .f32
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2048_S512x2048_0_0 : ∀ a, (![0, 0] : Fin 2 → Nat) a + S512x2048.size a ≤ S512x2048.size a
  h_S512x2048 : 0 < S512x2048.numel
  h_S2048x512 : 0 < S2048x512.numel
  shapeCasts_S2048x512_S2048x512 : S2048x512.ShapeCasts S2048x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S8192x512_S512x512_S8192x512_1_0_0_1_n_n_wf : DotDims.WF S8192x512 S512x512 S8192x512 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x512.size a ≤ S8192x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x8192.size a
  hwx1_0 : ∀ i : grid1.Coords, EltTy.bits .f32 = 32 ∨ (Rect.block (s := S8192x8192) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .bf16 = 32 ∨ (Rect.block (s := S8192x512) S8192x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S8192x512.size a
  hwx1_4 : ∀ i : grid1.Coords, EltTy.bits .f32 = 32 ∨ (Rect.block (s := S8192x512) S512x512.size (cc1_transform_4 i) (hinb1_4 i)).WholeWords (EltTy.packing .f32)

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S512x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x512 : Shape := ⟨2, ![1, 512]⟩

abbrev nBuf : Space → Nat
  | .hbm => 24
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192x1, .f32⟩
  | .hbm, ⟨13, _⟩ => ⟨S8192x8192, .f32⟩
  | .hbm, ⟨14, _⟩ => ⟨S8192x8192, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S8192x512, .f32⟩
  | .hbm, ⟨19, _⟩ => ⟨S512x512, .f32⟩
  | .hbm, ⟨20, _⟩ => ⟨S8192x512, .f32⟩
  | .hbm, ⟨21, _⟩ => ⟨S1x512, .f32⟩
  | .hbm, ⟨22, _⟩ => ⟨S8192x512, .f32⟩
  | .hbm, ⟨23, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x8192_S8192x512_S8192x512_1_0_0_1_n_n_wf : DotDims.WF S8192x8192 S8192x512 S8192x512 [1] [0] [0] [1] [] []
  dot_S8192x512_S512x512_S8192x512_1_0_0_1_n_n_wf : DotDims.WF S8192x512 S512x512 S8192x512 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.KernelFr.R0Base.lean ====
/-
  The degree kernel (the first of the program's two kernels), what its runs share. The grid is 8 row tiles by 4 column
  tiles, the column axis innermost: point t is row tile t / 4, column tile t % 4. The body zeroes its accumulator at
  column tile 0, adds the tile's row sums at every column tile, and copies the accumulator to the output block at column
  tile 3. So a point is in one of three cases, told apart by t % 4: first (0), middle (1, 2), last (3); the output
  window is idle except in the last case, which is also where its block is written back.
-/
import proofs.«151604_j6854767805296_2_alg».proof.Proof.Gen.Kernel.Launch
import proofs.«151604_j6854767805296_2_alg».proof.Proof.Gen.Kernel.Skeleton
import proofs.«151604_j6854767805296_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

/-- The first `scf.if`: the column tile is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second `scf.if`: the column tile is 3, the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated. -/
abbrev VO0_1 : View sig .tc .vmem S1024x1 .f32 := (Memref.whole cc0_stg1_0 : Memref sig .tc .vmem S1024x1 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0_0 : Memref sig .tc .vmem S1024x1 .f32 := Memref.whole cc0_scratch0
abbrev VS0_0 : View sig .tc .vmem S1024x1 .f32 := scM0_0.view

/-- The scoped buffers no window of this kernel stages, with the accumulator singled out as a memref owned at some
    contents; the other nine (the second kernel's staging buffers and accumulator) ride along untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA others0; rw [scopedRest0_eq]; simp only [scM0_0, owns_whole]; try rfl

end Cert.Kernel.Fr

end
-- ==== Proof.KernelFr.R0RunA.lean ====
/-
  The degree kernel at a point whose column tile is the first: the accumulator is zeroed (whatever it held), then the
  tile's row sums are added; the output block is not touched.
-/
import proofs.«151604_j6854767805296_2_alg».proof.Proof.KernelFr.R0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The degree kernel's body in the first case, on whole memrefs: the pieces its stores leave in the output's staging
    buffer and in the accumulator (last first), with the proof that the body runs from the input at its contents to the
    continuation holding the input as it was and those pieces written. -/
noncomputable def kernelRun0_A (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__deg_kernel i arg2 harg2 arg3 harg3 arg4 harg4) K } := by
  refine ⟨[], ?_, fun xi1 E K => ?run⟩
  case run =>
    simp only [cc0__deg_kernel_eq_skeleton]; unfold cc0__deg_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Fr

end
-- ==== Proof.KernelFr.R0RunB.lean ====
/-
  The degree kernel at a point whose column tile is neither first nor last: the tile's row sums are added to what the
  accumulator held; the output block is not touched.
-/
import proofs.«151604_j6854767805296_2_alg».proof.Proof.KernelFr.R0RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The degree kernel's body in the middle case, on whole memrefs: the pieces its stores leave in the output's staging
    buffer and in the accumulator (last first), with the proof that the body runs from the input at its contents to the
    continuation holding the input as it was and those pieces written. -/
noncomputable def kernelRun0_B (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__deg_kernel i arg2 harg2 arg3 harg3 arg4 harg4) K } := by
  refine ⟨[], ?_, fun xi1 E K => ?run⟩
  case run =>
    simp only [cc0__deg_kernel_eq_skeleton]; unfold cc0__deg_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Fr

end
-- ==== Proof.KernelFr.R0RunC.lean ====
/-
  The degree kernel at a point whose column tile is the last: the tile's row sums are added to what the accumulator
  held, and the accumulator is copied to the output block.
-/
import proofs.«151604_j6854767805296_2_alg».proof.Proof.KernelFr.R0RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The degree kernel's body in the last case, on whole memrefs: the pieces its stores leave in the output's staging
    buffer and in the accumulator (last first), with the proof that the body runs from the input at its contents to the
    continuation holding the input as it was and those pieces written. -/
noncomputable def kernelRun0_C (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__deg_kernel i arg2 harg2 arg3 harg3 arg4 harg4) K } := by
  refine ⟨?_, ?_, fun E K => ?run⟩
  case run =>
    simp only [cc0__deg_kernel_eq_skeleton]; unfold cc0__deg_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Fr

end
-- ==== Proof.KernelFr.R0Frame.lean ====
/-
  The degree kernel's region: what its accumulator and its output block hold after every grid point, the invariant that
  carries the accumulator from one point to the next, the proof data of its pipeline, and the body obligation.
  The entry contents of the core's buffers are a parameter `V`: the run instantiates it.
-/
import proofs.«151604_j6854767805296_2_alg».proof.Proof.KernelFr.R0RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- The first case stores nothing into the output block: a placeholder nothing consults. -/
def out0_A_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) : Vec F S1024x1 .f32 :=
  VO0_1.read (Elt F) (VO0_1.writes (Elt F) VO0_1.junk (kernelRun0_A c i arg2 harg2 arg3 harg3 arg4 harg4 hc0 hc1 x0).1)
/-- The first case's stores into the accumulator cover it. -/
theorem scover0_A_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) (y : S1024x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1024x1.size (by sl_kernel_rfl) y
/-- What the first case leaves in the accumulator. -/
def sout0_A_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) : Vec F S1024x1 .f32 :=
  VS0_0.read (Elt F) (VS0_0.writes (Elt F) VS0_0.junk (kernelRun0_A c i arg2 harg2 arg3 harg3 arg4 harg4 hc0 hc1 x0).2.1)

/-- The middle case stores nothing into the output block: a placeholder nothing consults. -/
def out0_B_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) : Vec F S1024x1 .f32 :=
  VO0_1.read (Elt F) (VO0_1.writes (Elt F) VO0_1.junk (kernelRun0_B c i arg2 harg2 arg3 harg3 arg4 harg4 hc0 hc1 x0 xs0).1)
theorem scover0_B_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) (y : S1024x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1024x1.size (by sl_kernel_rfl) y
/-- What the middle case leaves in the accumulator. -/
def sout0_B_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) : Vec F S1024x1 .f32 :=
  VS0_0.read (Elt F) (VS0_0.writes (Elt F) VS0_0.junk (kernelRun0_B c i arg2 harg2 arg3 harg3 arg4 harg4 hc0 hc1 x0 xs0).2.1)

/-- The last case's store into the output block covers it. -/
theorem cover0_C_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) (y : S1024x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1024x1.size (by sl_kernel_rfl) y
/-- What the last case leaves in the output block. -/
def out0_C_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) : Vec F S1024x1 .f32 :=
  VO0_1.read (Elt F) (VO0_1.writes (Elt F) VO0_1.junk (kernelRun0_C c i arg2 harg2 arg3 harg3 arg4 harg4 hc0 hc1 x0 xs0).1)
theorem scover0_C_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) (y : S1024x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1024x1.size (by sl_kernel_rfl) y
/-- What the last case leaves in the accumulator. -/
def sout0_C_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) : Vec F S1024x1 .f32 :=
  VS0_0.read (Elt F) (VS0_0.writes (Elt F) VS0_0.junk (kernelRun0_C c i arg2 harg2 arg3 harg3 arg4 harg4 hc0 hc1 x0 xs0).2.1)

/-! ## What the output block and the accumulator hold after each point -/

/-- After the body at position `n`: (the output's staging buffer, the accumulator) — the case `n % 4` selects, run on the
    point's input block, the middle and last cases over the accumulator the point before left. -/
def outsAt0 (c : Dev nD) : (n : ℕ) → n < cfg0.N → Vec F S1024x1 .f32 × Vec F S1024x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 4 = 0 then
      if h1 : (n + 1) % 4 = 3 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 4 = 3 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

/-- Before position `n`: at the first point every scoped buffer the pipeline does not stage at anything; afterwards the
    accumulator at what the point before left in it, the other scoped buffers at anything. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ others0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 (F := F) c) ∗ (∃ r, prngReg c r)) := by
  cases n with
  | zero => exact absurd rfl hz
  | succ n => rfl

/-! ## The pipeline's proof data -/

/-- The arrays as the region finds them; after the body the input's buffer at its block and the output's at `outsAt0`;
    the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; `t % 4` says which case the point is in; the invariant
    hands the body the accumulator (at anything at the very first point and whenever the case zeroes it first, at what the
    point before left otherwise) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
      · rw [PhiS0_castSucc V c t, PhiS0_pos V c _ _ hz]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
  · have hz : t.val ≠ 0 := fun e => h0 (by rw [e])
    by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      rw [PhiS0_castSucc V c t, PhiS0_pos V c _ _ hz]
      iintro ⟨⟨⟨HS0, Hoth⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _)
          iexact Hoth
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, Hoth⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _)
          iexact Hoth
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the entry form back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 32 := N_0; omega)

end Cert.Kernel.Fr

end
-- ==== Proof.KernelFr.R1Base.lean ====
/-
  The aggregation kernel (the second of the program's two kernels), what its runs share. The grid is 16 row tiles by 4
  column tiles, the column axis innermost: point t is row tile t / 4, column tile t % 4. The body zeroes its 512 × 512
  accumulator at column tile 0, adds the product of the adjacency tile with the matching 2048 rows of the projected
  features at every column tile, and at column tile 3 writes (row factor · accumulator + bias) to the output block.
  Three cases by t % 4: first (0), middle (1, 2), last (3); the output window is idle except in the last case, which
  is also where its block is written back.
-/
import proofs.«151604_j6854767805296_2_alg».proof.Proof.Gen.Kernel.Launch
import proofs.«151604_j6854767805296_2_alg».proof.Proof.Gen.Kernel.Skeleton
import proofs.«151604_j6854767805296_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

/-- The first `scf.if`: the column tile is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second `scf.if`: the column tile is 3, the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated. -/
abbrev VO1_4 : View sig .tc .vmem S512x512 .f32 := (Memref.whole cc1_stg4_0 : Memref sig .tc .vmem S512x512 .f32).view
abbrev ms1_0 (t : Fin cfg1.N) : Memref sig .tc .vmem S512x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1_0 : Memref sig .tc .vmem S512x512 .f32 := Memref.whole cc1_scratch0
abbrev VS1_0 : View sig .tc .vmem S512x512 .f32 := scM1_0.view

/-- The scoped buffers of the core that this kernel neither stages through nor accumulates in (the first kernel's
    staging buffers and accumulator), each whole at some contents: they ride along untouched. -/
abbrev o1a (c : Dev nD) : sProp 𝕄 := iprop((∃ f : Buf (Elt F) ((c : Thread nD τ).loc cc0_stg0_0), ((c : Thread nD τ).loc cc0_stg0_0) ↦{fullShare} f))
abbrev o1b (c : Dev nD) : sProp 𝕄 := iprop((∃ f : Buf (Elt F) ((c : Thread nD τ).loc cc0_stg0_1), ((c : Thread nD τ).loc cc0_stg0_1) ↦{fullShare} f))
abbrev o1c (c : Dev nD) : sProp 𝕄 := iprop((∃ f : Buf (Elt F) ((c : Thread nD τ).loc cc0_stg1_0), ((c : Thread nD τ).loc cc0_stg1_0) ↦{fullShare} f))
abbrev o1d (c : Dev nD) : sProp 𝕄 := iprop((∃ f : Buf (Elt F) ((c : Thread nD τ).loc cc0_stg1_1), ((c : Thread nD τ).loc cc0_stg1_1) ↦{fullShare} f))
abbrev o1e (c : Dev nD) : sProp 𝕄 := iprop((∃ f : Buf (Elt F) ((c : Thread nD τ).loc cc0_scratch0), ((c : Thread nD τ).loc cc0_scratch0) ↦{fullShare} f))

theorem PhiA1_eq (c : Dev nD) :
    (Pipeline.ΦA spec1 c : sProp 𝕄)
      = iprop(iprop(o1a (F := F) c ∗ o1b (F := F) c ∗ o1c (F := F) c ∗ o1d (F := F) c ∗ o1e (F := F) c ∗ (∃ d, owns (c : Thread nD τ) scM1_0 fullShare d)) ∗ (∃ r, prngReg c r)) := by
  unfold Pipeline.ΦA; rw [scopedRest1_eq]; simp only [scM1_0, owns_whole]; try rfl

end Cert.Kernel.Fr

end
-- ==== Proof.KernelFr.R1RunA.lean ====
/-
  The aggregation kernel at a point whose column tile is the first: the accumulator is zeroed (whatever it held), then
  the tile's product is added; the output block is not touched.
-/
import proofs.«151604_j6854767805296_2_alg».proof.Proof.KernelFr.R1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The aggregation kernel's body in the first case, on whole memrefs: the pieces its stores leave in the output's staging
    buffer and in the accumulator (last first), with the proof that the body runs from the inputs at their contents to
    the continuation holding the inputs as they were and those pieces written. -/
noncomputable def kernelRun1_A (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond1_0 i) (hc1 : ¬cond1_1 i)
    (x0 : Vec F S512x2048 .f32) (x1 : Vec F S8192x512 .bf16) (x2 : Vec F S512x1 .f32) (x3 : Vec F S1x512 .f32) :
    Σ' (L4 : List (View.Piece (Elt F) S512x512 .f32)), { LS0 : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.KernelFr.R1RunB.lean ====
/-
  The aggregation kernel at a point whose column tile is neither first nor last: the tile's product is added to what
  the accumulator held; the output block is not touched.
-/
import proofs.«151604_j6854767805296_2_alg».proof.Proof.KernelFr.R1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The aggregation kernel's body in the middle case, on whole memrefs: the pieces its stores leave in the output's staging
    buffer and in the accumulator (last first), with the proof that the body runs from the inputs at their contents to
    the continuation holding the inputs as they were and those pieces written. -/
noncomputable def kernelRun1_B (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond1_0 i) (hc1 : ¬cond1_1 i)
    (x0 : Vec F S512x2048 .f32) (x1 : Vec F S8192x512 .bf16) (x2 : Vec F S512x1 .f32) (x3 : Vec F S1x512 .f32) (xs0 : Vec F S512x512 .f32) :
    Σ' (L4 : List (View.Piece (Elt F) S512x512 .f32)), { LS0 : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.KernelFr.R1RunC.lean ====
/-
  The aggregation kernel at a point whose column tile is the last: the tile's product is added to what the accumulator
  held, and (row factor · accumulator + bias) is written to the output block.
-/
import proofs.«151604_j6854767805296_2_alg».proof.Proof.KernelFr.R1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The aggregation kernel's body in the last case, on whole memrefs: the pieces its stores leave in the output's staging
    buffer and in the accumulator (last first), with the proof that the body runs from the inputs at their contents to
    the continuation holding the inputs as they were and those pieces written. -/
noncomputable def kernelRun1_C (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond1_0 i) (hc1 : cond1_1 i)
    (x0 : Vec F S512x2048 .f32) (x1 : Vec F S8192x512 .bf16) (x2 : Vec F S512x1 .f32) (x3 : Vec F S1x512 .f32) (xs0 : Vec F S512x512 .f32) :
    Σ' (L4 : List (View.Piece (Elt F) S512x512 .f32)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Fr

end
-- ==== Proof.KernelFr.R1Frame.lean ====
/-
  The aggregation kernel's region: what its accumulator and its output block hold after every grid point, the invariant
  that carries the accumulator from one point to the next, the proof data of its pipeline, and the body obligation.
  The entry contents of the core's buffers are a parameter `V`: the run instantiates it.
-/
import proofs.«151604_j6854767805296_2_alg».proof.Proof.KernelFr.R1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The first case stores nothing into the output block: a placeholder nothing consults. -/
def out1_A_4 (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond1_0 i) (hc1 : ¬cond1_1 i)
    (x0 : Vec F S512x2048 .f32) (x1 : Vec F S8192x512 .bf16) (x2 : Vec F S512x1 .f32) (x3 : Vec F S1x512 .f32) : Vec F S512x512 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)
theorem scover1_A_0 (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond1_0 i) (hc1 : ¬cond1_1 i)
    (x0 : Vec F S512x2048 .f32) (x1 : Vec F S8192x512 .bf16) (x2 : Vec F S512x1 .f32) (x3 : Vec F S1x512 .f32) (y : S512x512.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S512x512.size (by sl_kernel_rfl) y
/-- What the first case leaves in the accumulator. -/
def sout1_A_0 (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond1_0 i) (hc1 : ¬cond1_1 i)
    (x0 : Vec F S512x2048 .f32) (x1 : Vec F S8192x512 .bf16) (x2 : Vec F S512x1 .f32) (x3 : Vec F S1x512 .f32) : Vec F S512x512 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- The middle case stores nothing into the output block: a placeholder nothing consults. -/
def out1_B_4 (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond1_0 i) (hc1 : ¬cond1_1 i)
    (x0 : Vec F S512x2048 .f32) (x1 : Vec F S8192x512 .bf16) (x2 : Vec F S512x1 .f32) (x3 : Vec F S1x512 .f32) (xs0 : Vec F S512x512 .f32) : Vec F S512x512 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)
theorem scover1_B_0 (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond1_0 i) (hc1 : ¬cond1_1 i)
    (x0 : Vec F S512x2048 .f32) (x1 : Vec F S8192x512 .bf16) (x2 : Vec F S512x1 .f32) (x3 : Vec F S1x512 .f32) (xs0 : Vec F S512x512 .f32) (y : S512x512.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S512x512.size (by sl_kernel_rfl) y
/-- What the middle case leaves in the accumulator. -/
def sout1_B_0 (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond1_0 i) (hc1 : ¬cond1_1 i)
    (x0 : Vec F S512x2048 .f32) (x1 : Vec F S8192x512 .bf16) (x2 : Vec F S512x1 .f32) (x3 : Vec F S1x512 .f32) (xs0 : Vec F S512x512 .f32) : Vec F S512x512 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- The last case's store into the output block covers it. -/
theorem cover1_C_4 (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond1_0 i) (hc1 : cond1_1 i)
    (x0 : Vec F S512x2048 .f32) (x1 : Vec F S8192x512 .bf16) (x2 : Vec F S512x1 .f32) (x3 : Vec F S1x512 .f32) (xs0 : Vec F S512x512 .f32) (y : S512x512.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S512x512.size (by sl_kernel_rfl) y
/-- What the last case leaves in the output block. -/
def out1_C_4 (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond1_0 i) (hc1 : cond1_1 i)
    (x0 : Vec F S512x2048 .f32) (x1 : Vec F S8192x512 .bf16) (x2 : Vec F S512x1 .f32) (x3 : Vec F S1x512 .f32) (xs0 : Vec F S512x512 .f32) : Vec F S512x512 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)
theorem scover1_C_0 (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond1_0 i) (hc1 : cond1_1 i)
    (x0 : Vec F S512x2048 .f32) (x1 : Vec F S8192x512 .bf16) (x2 : Vec F S512x1 .f32) (x3 : Vec F S1x512 .f32) (xs0 : Vec F S512x512 .f32) (y : S512x512.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S512x512.size (by sl_kernel_rfl) y
/-- What the last case leaves in the accumulator. -/
def sout1_C_0 (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond1_0 i) (hc1 : cond1_1 i)
    (x0 : Vec F S512x2048 .f32) (x1 : Vec F S8192x512 .bf16) (x2 : Vec F S512x1 .f32) (x3 : Vec F S1x512 .f32) (xs0 : Vec F S512x512 .f32) : Vec F S512x512 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-! ## What the output block and the accumulator hold after each point -/

/-- After the body at position `n`: (the output's staging buffer, the accumulator) — the case `n % 4` selects, run on the
    point's input blocks, the middle and last cases over the accumulator the point before left. -/
def outsAt1 (c : Dev nD) : (n : ℕ) → n < cfg1.N → Vec F S512x512 .f32 × Vec F S512x512 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

/-- Before position `n`: at the first point every scoped buffer the pipeline does not stage at anything; afterwards the
    accumulator at what the point before left in it, the other scoped buffers at anything. -/
def PhiS1 (c : Dev nD) : (n : ℕ) → n ≤ cfg1.N → sProp 𝕄
  | 0, _ => Pipeline.ΦA spec1 c
  | n + 1, hn => iprop(iprop(o1a (F := F) c ∗ o1b (F := F) c ∗ o1c (F := F) c ∗ o1d (F := F) c ∗ o1e (F := F) c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(o1a (F := F) c ∗ o1b (F := F) c ∗ o1c (F := F) c ∗ o1d (F := F) c ∗ o1e (F := F) c ∗ owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(iprop(o1a (F := F) c ∗ o1b (F := F) c ∗ o1c (F := F) c ∗ o1d (F := F) c ∗ o1e (F := F) c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The arrays as the region finds them; after the body each input's buffer at its block and the output's at `outsAt1`;
    the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; `t % 4` says which case the point is in; the invariant
    hands the body the accumulator (at anything at the very first point and whenever the case zeroes it first, at what the
    point before left otherwise) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  rw [show (dat1 V c).leavesExact 3 t = owns (c : Thread nD τ) (ms1_3 t) fullShare ((dat1 V c).after 3 t) from by
        unfold Dat.leavesExact; rw [liveAt1_3 t], after1_3]
  by_cases h0 : t.val % 4 = 0
  · by_cases h1 : t.val % 4 = 3
    · exfalso; omega
    · rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨Ha, Hb, Hc, Hd, He, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [Ha Hb Hc Hd He HS0 Hg]
        · isplitl [Ha Hb Hc Hd He HS0]
          · isplitl [Ha]; · iexact Ha
            isplitl [Hb]; · iexact Hb
            isplitl [Hc]; · iexact Hc
            isplitl [Hd]; · iexact Hd
            isplitl [He]; · iexact He
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨Ha, Hb, Hc, Hd, He, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [Ha Hb Hc Hd He HS0 Hg]
        · isplitl [Ha Hb Hc Hd He HS0]
          · isplitl [Ha]; · iexact Ha
            isplitl [Hb]; · iexact Hb
            isplitl [Hc]; · iexact Hc
            isplitl [Hd]; · iexact Hd
            isplitl [He]; · iexact He
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 4 = 3
    · rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      rw [PhiS1_castSucc V c t, PhiS1_pos V c _ _ hz]
      iintro ⟨⟨⟨Ha, Hb, Hc, Hd, He, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨Ha, Hb, Hc, Hd, He, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry form back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha, Hb, Hc, Hd, He, HS0⟩, Hg⟩
  isplitl [Ha Hb Hc Hd He HS0]
  · isplitl [Ha]; · iexact Ha
    isplitl [Hb]; · iexact Hb
    isplitl [Hc]; · iexact Hc
    isplitl [Hd]; · iexact Hd
    isplitl [He]; · iexact He
    iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Fr

end
-- ==== Proof.KernelFr.Assemble.lean ====
/-
  The program's run as three items — the degree kernel's region, the host stretch that turns degrees into the row
  factors and the projected features, the aggregation kernel's region — and what every unscoped buffer of the core
  holds at the end: a fold from the launch memory (`W0`) through what the first region leaves (`W1`), the host
  operations (`W2`) and what the second region leaves (`W3`). The arguments walk back through the fold to the launch
  memory; the result buffer is the second region's output array after its last write-back.
-/
import proofs.«151604_j6854767805296_2_alg».proof.Proof.KernelFr.R0Frame
import proofs.«151604_j6854767805296_2_alg».proof.Proof.KernelFr.R1Frame
import proofs.«151604_j6854767805296_2_alg».proof.Proof.Gen.Kernel.Regions
import Idealize.ShloMosaic.Lib.Pipeline.RegionsLoop
import Idealize.ShloMosaic.Lib.Pipeline.FrameSuffix

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host stretch. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- The host stretch leaves every buffer it does not write as it found it. -/
theorem W2_of (c : Dev nD) (r : Ref sig .tc) (h : r ∉ (hostOps1_W : List (Ref sig .tc))) :
    W2 m c (Proc.devRef .tc r) = W1 m c (Proc.devRef .tc r) :=
  StableHlo.after_of_writes_sub hostOps1 _ hostOps1_writes h

/-- After the second region. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

theorem W3_main_arg0 (c : Dev nD) : W3 m c (Proc.devRef .tc main_arg0) = m ((c : Thread nD τ).loc main_arg0) :=
  (W3_of_ne m c main_arg0 (by decide)).trans ((W2_of m c main_arg0 (by decide)).trans ((W1_of_ne m c main_arg0 (by decide)).trans rfl))
theorem W3_main_arg2 (c : Dev nD) : W3 m c (Proc.devRef .tc main_arg2) = m ((c : Thread nD τ).loc main_arg2) :=
  (W3_of_ne m c main_arg2 (by decide)).trans ((W2_of m c main_arg2 (by decide)).trans ((W1_of_ne m c main_arg2 (by decide)).trans rfl))
theorem W3_main_arg3 (c : Dev nD) : W3 m c (Proc.devRef .tc main_arg3) = m ((c : Thread nD τ).loc main_arg3) :=
  (W3_of_ne m c main_arg3 (by decide)).trans ((W2_of m c main_arg3 (by decide)).trans ((W1_of_ne m c main_arg3 (by decide)).trans rfl))
/-- The adjacency matrix is an input window's array of both regions: each leaves it as it found it. -/
theorem W1_main_arg1 (c : Dev nD) : W1 m c (Proc.devRef .tc main_arg1) = m ((c : Thread nD τ).loc main_arg1) :=
  (W1_arr m c 0).trans (((dat0 (V0 m) c).arrAt_in 0 rfl _).trans ((A_eq0 (V0 m) c 0).trans rfl))
theorem W2_main_arg1 (c : Dev nD) : W2 m c (Proc.devRef .tc main_arg1) = m ((c : Thread nD τ).loc main_arg1) :=
  (W2_of m c main_arg1 (by decide)).trans (W1_main_arg1 m c)
theorem W3_main_arg1 (c : Dev nD) : W3 m c (Proc.devRef .tc main_arg1) = m ((c : Thread nD τ).loc main_arg1) :=
  (W3_arr m c 0).trans (((dat1 (V2 m) c).arrAt_in 0 rfl _).trans ((A_eq1 (V2 m) c 0).trans (W2_main_arg1 m c)))
/-- The result buffer holds the second region's output array after its last write-back. -/
theorem W3_main_v11 (c : Dev nD) : W3 m c (Proc.devRef .tc main_v11) = (dat1 (V2 m) c).arrAt 4 cfg1.N :=
  W3_arr m c 4

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as items -/

set_option backward.isDefEq.respectTransparency.types false in
/-- The degree kernel's region: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (V0 m) c)
    unfold Pipeline.ΦA
    iintro ⟨Hp, -, Hr⟩
    isplitl [Hr]; · iexact Hr
    iexact Hp
  hout c := by
    refine (show (pdats m 0 c).Φ (Fin.last _) ⊢ (Pipeline.ΦA spec0 c : sProp 𝕄) from hout0 (V0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation kernel's region: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V2 m) c)
    unfold Pipeline.ΦA
    iintro ⟨Hp, -, Hr⟩
    isplitl [Hr]; · iexact Hr
    iexact Hp
  hout c := by
    refine (show (pdats m 1 c).Φ (Fin.last _) ⊢ (Pipeline.ΦA spec1 c : sProp 𝕄) from hout1 (V2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds every unscoped buffer of every core at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

/-- The run with the result named: the result buffer ends at the second region's output array after its last
    write-back, the arguments as launched. -/
theorem run_result : θ_run defs (onTc (τ := τ) (main (F := F))) ⟨m, fun _ => 0, ρ⟩ (fun r => ∀ c : Dev nD,
      r.2.mem ((c.tc : Thread nD τ).loc main_v11) = (dat1 (V2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v11 (by decide))).trans (W3_main_v11 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.Kernel.Fr

end
-- ==== Proof.KernelIdealFr.R0Base.lean ====
/-
  The degree kernel (the first of the program's two kernels), what its runs share. The grid is 8 row tiles by 4 column
  tiles, the column axis innermost: point t is row tile t / 4, column tile t % 4. The body zeroes its accumulator at
  column tile 0, adds the tile's row sums at every column tile, and copies the accumulator to the output block at column
  tile 3. So a point is in one of three cases, told apart by t % 4: first (0), middle (1, 2), last (3); the output
  window is idle except in the last case, which is also where its block is written back.
-/
import proofs.«151604_j6854767805296_2_alg».proof.Proof.Gen.KernelIdeal.Launch
import proofs.«151604_j6854767805296_2_alg».proof.Proof.Gen.KernelIdeal.Skeleton
import proofs.«151604_j6854767805296_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

/-- The first `scf.if`: the column tile is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second `scf.if`: the column tile is 3, the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated. -/
abbrev VO0_1 : View sig .tc .vmem S1024x1 .f32 := (Memref.whole cc0_stg1_0 : Memref sig .tc .vmem S1024x1 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0_0 : Memref sig .tc .vmem S1024x1 .f32 := Memref.whole cc0_scratch0
abbrev VS0_0 : View sig .tc .vmem S1024x1 .f32 := scM0_0.view

/-- The scoped buffers no window of this kernel stages, with the accumulator singled out as a memref owned at some
    contents; the other nine (the second kernel's staging buffers and accumulator) ride along untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA others0; rw [scopedRest0_eq]; simp only [scM0_0, owns_whole]; try rfl

end Cert.KernelIdeal.Fr

end
-- ==== Proof.KernelIdealFr.R0RunA.lean ====
/-
  The degree kernel at a point whose column tile is the first: the accumulator is zeroed (whatever it held), then the
  tile's row sums are added; the output block is not touched.
-/
import proofs.«151604_j6854767805296_2_alg».proof.Proof.KernelIdealFr.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The degree kernel's body in the first case, on whole memrefs: the pieces its stores leave in the output's staging
    buffer and in the accumulator (last first), with the proof that the body runs from the input at its contents to the
    continuation holding the input as it was and those pieces written. -/
noncomputable def kernelRun0_A (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__deg_kernel i arg2 harg2 arg3 harg3 arg4 harg4) K } := by
  refine ⟨[], ?_, fun xi1 E K => ?run⟩
  case run =>
    simp only [cc0__deg_kernel_eq_skeleton]; unfold cc0__deg_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Fr

end
-- ==== Proof.KernelIdealFr.R0RunB.lean ====
/-
  The degree kernel at a point whose column tile is neither first nor last: the tile's row sums are added to what the
  accumulator held; the output block is not touched.
-/
import proofs.«151604_j6854767805296_2_alg».proof.Proof.KernelIdealFr.R0RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The degree kernel's body in the middle case, on whole memrefs: the pieces its stores leave in the output's staging
    buffer and in the accumulator (last first), with the proof that the body runs from the input at its contents to the
    continuation holding the input as it was and those pieces written. -/
noncomputable def kernelRun0_B (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__deg_kernel i arg2 harg2 arg3 harg3 arg4 harg4) K } := by
  refine ⟨[], ?_, fun xi1 E K => ?run⟩
  case run =>
    simp only [cc0__deg_kernel_eq_skeleton]; unfold cc0__deg_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Fr

end
-- ==== Proof.KernelIdealFr.R0RunC.lean ====
/-
  The degree kernel at a point whose column tile is the last: the tile's row sums are added to what the accumulator
  held, and the accumulator is copied to the output block.
-/
import proofs.«151604_j6854767805296_2_alg».proof.Proof.KernelIdealFr.R0RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The degree kernel's body in the last case, on whole memrefs: the pieces its stores leave in the output's staging
    buffer and in the accumulator (last first), with the proof that the body runs from the input at its contents to the
    continuation holding the input as it was and those pieces written. -/
noncomputable def kernelRun0_C (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__deg_kernel i arg2 harg2 arg3 harg3 arg4 harg4) K } := by
  refine ⟨?_, ?_, fun E K => ?run⟩
  case run =>
    simp only [cc0__deg_kernel_eq_skeleton]; unfold cc0__deg_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Fr

end
-- ==== Proof.KernelIdealFr.R0Frame.lean ====
/-
  The degree kernel's region: what its accumulator and its output block hold after every grid point, the invariant that
  carries the accumulator from one point to the next, the proof data of its pipeline, and the body obligation.
  The entry contents of the core's buffers are a parameter `V`: the run instantiates it.
-/
import proofs.«151604_j6854767805296_2_alg».proof.Proof.KernelIdealFr.R0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- The first case stores nothing into the output block: a placeholder nothing consults. -/
def out0_A_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) : Vec F S1024x1 .f32 :=
  VO0_1.read (Elt F) (VO0_1.writes (Elt F) VO0_1.junk (kernelRun0_A c i arg2 harg2 arg3 harg3 arg4 harg4 hc0 hc1 x0).1)
/-- The first case's stores into the accumulator cover it. -/
theorem scover0_A_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) (y : S1024x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1024x1.size (by sl_kernel_rfl) y
/-- What the first case leaves in the accumulator. -/
def sout0_A_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) : Vec F S1024x1 .f32 :=
  VS0_0.read (Elt F) (VS0_0.writes (Elt F) VS0_0.junk (kernelRun0_A c i arg2 harg2 arg3 harg3 arg4 harg4 hc0 hc1 x0).2.1)

/-- The middle case stores nothing into the output block: a placeholder nothing consults. -/
def out0_B_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) : Vec F S1024x1 .f32 :=
  VO0_1.read (Elt F) (VO0_1.writes (Elt F) VO0_1.junk (kernelRun0_B c i arg2 harg2 arg3 harg3 arg4 harg4 hc0 hc1 x0 xs0).1)
theorem scover0_B_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) (y : S1024x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1024x1.size (by sl_kernel_rfl) y
/-- What the middle case leaves in the accumulator. -/
def sout0_B_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) : Vec F S1024x1 .f32 :=
  VS0_0.read (Elt F) (VS0_0.writes (Elt F) VS0_0.junk (kernelRun0_B c i arg2 harg2 arg3 harg3 arg4 harg4 hc0 hc1 x0 xs0).2.1)

/-- The last case's store into the output block covers it. -/
theorem cover0_C_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) (y : S1024x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1024x1.size (by sl_kernel_rfl) y
/-- What the last case leaves in the output block. -/
def out0_C_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) : Vec F S1024x1 .f32 :=
  VO0_1.read (Elt F) (VO0_1.writes (Elt F) VO0_1.junk (kernelRun0_C c i arg2 harg2 arg3 harg3 arg4 harg4 hc0 hc1 x0 xs0).1)
theorem scover0_C_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) (y : S1024x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1024x1.size (by sl_kernel_rfl) y
/-- What the last case leaves in the accumulator. -/
def sout0_C_0 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) : Vec F S1024x1 .f32 :=
  VS0_0.read (Elt F) (VS0_0.writes (Elt F) VS0_0.junk (kernelRun0_C c i arg2 harg2 arg3 harg3 arg4 harg4 hc0 hc1 x0 xs0).2.1)

/-! ## What the output block and the accumulator hold after each point -/

/-- After the body at position `n`: (the output's staging buffer, the accumulator) — the case `n % 4` selects, run on the
    point's input block, the middle and last cases over the accumulator the point before left. -/
def outsAt0 (c : Dev nD) : (n : ℕ) → n < cfg0.N → Vec F S1024x1 .f32 × Vec F S1024x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 4 = 0 then
      if h1 : (n + 1) % 4 = 3 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 4 = 3 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

/-- Before position `n`: at the first point every scoped buffer the pipeline does not stage at anything; afterwards the
    accumulator at what the point before left in it, the other scoped buffers at anything. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ others0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 (F := F) c) ∗ (∃ r, prngReg c r)) := by
  cases n with
  | zero => exact absurd rfl hz
  | succ n => rfl

/-! ## The pipeline's proof data -/

/-- The arrays as the region finds them; after the body the input's buffer at its block and the output's at `outsAt0`;
    the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; `t % 4` says which case the point is in; the invariant
    hands the body the accumulator (at anything at the very first point and whenever the case zeroes it first, at what the
    point before left otherwise) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
      · rw [PhiS0_castSucc V c t, PhiS0_pos V c _ _ hz]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
  · have hz : t.val ≠ 0 := fun e => h0 (by rw [e])
    by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      rw [PhiS0_castSucc V c t, PhiS0_pos V c _ _ hz]
      iintro ⟨⟨⟨HS0, Hoth⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _)
          iexact Hoth
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, Hoth⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _)
          iexact Hoth
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the entry form back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Fr

end
-- ==== Proof.KernelIdealFr.R1Base.lean ====
/-
  The aggregation kernel (the second of the program's two kernels), what its runs share. The grid is 16 row tiles by 4
  column tiles, the column axis innermost: point t is row tile t / 4, column tile t % 4. The body zeroes its 512 × 512
  accumulator at column tile 0, adds the product of the adjacency tile with the matching 2048 rows of the projected
  features at every column tile, and at column tile 3 writes (row factor · accumulator + bias) to the output block.
  Three cases by t % 4: first (0), middle (1, 2), last (3); the output window is idle except in the last case, which
  is also where its block is written back.
-/
import proofs.«151604_j6854767805296_2_alg».proof.Proof.Gen.KernelIdeal.Launch
import proofs.«151604_j6854767805296_2_alg».proof.Proof.Gen.KernelIdeal.Skeleton
import proofs.«151604_j6854767805296_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

/-- The first `scf.if`: the column tile is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second `scf.if`: the column tile is 3, the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated. -/
abbrev VO1_4 : View sig .tc .vmem S512x512 .f32 := (Memref.whole cc1_stg4_0 : Memref sig .tc .vmem S512x512 .f32).view
abbrev ms1_0 (t : Fin cfg1.N) : Memref sig .tc .vmem S512x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1_0 : Memref sig .tc .vmem S512x512 .f32 := Memref.whole cc1_scratch0
abbrev VS1_0 : View sig .tc .vmem S512x512 .f32 := scM1_0.view

/-- The scoped buffers of the core that this kernel neither stages through nor accumulates in (the first kernel's
    staging buffers and accumulator), each whole at some contents: they ride along untouched. -/
abbrev o1a (c : Dev nD) : sProp 𝕄 := iprop((∃ f : Buf (Elt F) ((c : Thread nD τ).loc cc0_stg0_0), ((c : Thread nD τ).loc cc0_stg0_0) ↦{fullShare} f))
abbrev o1b (c : Dev nD) : sProp 𝕄 := iprop((∃ f : Buf (Elt F) ((c : Thread nD τ).loc cc0_stg0_1), ((c : Thread nD τ).loc cc0_stg0_1) ↦{fullShare} f))
abbrev o1c (c : Dev nD) : sProp 𝕄 := iprop((∃ f : Buf (Elt F) ((c : Thread nD τ).loc cc0_stg1_0), ((c : Thread nD τ).loc cc0_stg1_0) ↦{fullShare} f))
abbrev o1d (c : Dev nD) : sProp 𝕄 := iprop((∃ f : Buf (Elt F) ((c : Thread nD τ).loc cc0_stg1_1), ((c : Thread nD τ).loc cc0_stg1_1) ↦{fullShare} f))
abbrev o1e (c : Dev nD) : sProp 𝕄 := iprop((∃ f : Buf (Elt F) ((c : Thread nD τ).loc cc0_scratch0), ((c : Thread nD τ).loc cc0_scratch0) ↦{fullShare} f))

theorem PhiA1_eq (c : Dev nD) :
    (Pipeline.ΦA spec1 c : sProp 𝕄)
      = iprop(iprop(o1a (F := F) c ∗ o1b (F := F) c ∗ o1c (F := F) c ∗ o1d (F := F) c ∗ o1e (F := F) c ∗ (∃ d, owns (c : Thread nD τ) scM1_0 fullShare d)) ∗ (∃ r, prngReg c r)) := by
  unfold Pipeline.ΦA; rw [scopedRest1_eq]; simp only [scM1_0, owns_whole]; try rfl

end Cert.KernelIdeal.Fr

end
-- ==== Proof.KernelIdealFr.R1RunA.lean ====
/-
  The aggregation kernel at a point whose column tile is the first: the accumulator is zeroed (whatever it held), then
  the tile's product is added; the output block is not touched.
-/
import proofs.«151604_j6854767805296_2_alg».proof.Proof.KernelIdealFr.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The aggregation kernel's body in the first case, on whole memrefs: the pieces its stores leave in the output's staging
    buffer and in the accumulator (last first), with the proof that the body runs from the inputs at their contents to
    the continuation holding the inputs as they were and those pieces written. -/
noncomputable def kernelRun1_A (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond1_0 i) (hc1 : ¬cond1_1 i)
    (x0 : Vec F S512x2048 .f32) (x1 : Vec F S8192x512 .bf16) (x2 : Vec F S512x1 .f32) (x3 : Vec F S1x512 .f32) :
    Σ' (L4 : List (View.Piece (Elt F) S512x512 .f32)), { LS0 : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KernelIdealFr.R1RunB.lean ====
/-
  The aggregation kernel at a point whose column tile is neither first nor last: the tile's product is added to what
  the accumulator held; the output block is not touched.
-/
import proofs.«151604_j6854767805296_2_alg».proof.Proof.KernelIdealFr.R1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The aggregation kernel's body in the middle case, on whole memrefs: the pieces its stores leave in the output's staging
    buffer and in the accumulator (last first), with the proof that the body runs from the inputs at their contents to
    the continuation holding the inputs as they were and those pieces written. -/
noncomputable def kernelRun1_B (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond1_0 i) (hc1 : ¬cond1_1 i)
    (x0 : Vec F S512x2048 .f32) (x1 : Vec F S8192x512 .bf16) (x2 : Vec F S512x1 .f32) (x3 : Vec F S1x512 .f32) (xs0 : Vec F S512x512 .f32) :
    Σ' (L4 : List (View.Piece (Elt F) S512x512 .f32)), { LS0 : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KernelIdealFr.R1RunC.lean ====
/-
  The aggregation kernel at a point whose column tile is the last: the tile's product is added to what the accumulator
  held, and (row factor · accumulator + bias) is written to the output block.
-/
import proofs.«151604_j6854767805296_2_alg».proof.Proof.KernelIdealFr.R1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The aggregation kernel's body in the last case, on whole memrefs: the pieces its stores leave in the output's staging
    buffer and in the accumulator (last first), with the proof that the body runs from the inputs at their contents to
    the continuation holding the inputs as they were and those pieces written. -/
noncomputable def kernelRun1_C (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond1_0 i) (hc1 : cond1_1 i)
    (x0 : Vec F S512x2048 .f32) (x1 : Vec F S8192x512 .bf16) (x2 : Vec F S512x1 .f32) (x3 : Vec F S1x512 .f32) (xs0 : Vec F S512x512 .f32) :
    Σ' (L4 : List (View.Piece (Elt F) S512x512 .f32)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Fr

end
-- ==== Proof.KernelIdealFr.R1Frame.lean ====
/-
  The aggregation kernel's region: what its accumulator and its output block hold after every grid point, the invariant
  that carries the accumulator from one point to the next, the proof data of its pipeline, and the body obligation.
  The entry contents of the core's buffers are a parameter `V`: the run instantiates it.
-/
import proofs.«151604_j6854767805296_2_alg».proof.Proof.KernelIdealFr.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The first case stores nothing into the output block: a placeholder nothing consults. -/
def out1_A_4 (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond1_0 i) (hc1 : ¬cond1_1 i)
    (x0 : Vec F S512x2048 .f32) (x1 : Vec F S8192x512 .bf16) (x2 : Vec F S512x1 .f32) (x3 : Vec F S1x512 .f32) : Vec F S512x512 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)
theorem scover1_A_0 (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond1_0 i) (hc1 : ¬cond1_1 i)
    (x0 : Vec F S512x2048 .f32) (x1 : Vec F S8192x512 .bf16) (x2 : Vec F S512x1 .f32) (x3 : Vec F S1x512 .f32) (y : S512x512.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S512x512.size (by sl_kernel_rfl) y
/-- What the first case leaves in the accumulator. -/
def sout1_A_0 (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond1_0 i) (hc1 : ¬cond1_1 i)
    (x0 : Vec F S512x2048 .f32) (x1 : Vec F S8192x512 .bf16) (x2 : Vec F S512x1 .f32) (x3 : Vec F S1x512 .f32) : Vec F S512x512 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- The middle case stores nothing into the output block: a placeholder nothing consults. -/
def out1_B_4 (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond1_0 i) (hc1 : ¬cond1_1 i)
    (x0 : Vec F S512x2048 .f32) (x1 : Vec F S8192x512 .bf16) (x2 : Vec F S512x1 .f32) (x3 : Vec F S1x512 .f32) (xs0 : Vec F S512x512 .f32) : Vec F S512x512 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)
theorem scover1_B_0 (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond1_0 i) (hc1 : ¬cond1_1 i)
    (x0 : Vec F S512x2048 .f32) (x1 : Vec F S8192x512 .bf16) (x2 : Vec F S512x1 .f32) (x3 : Vec F S1x512 .f32) (xs0 : Vec F S512x512 .f32) (y : S512x512.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S512x512.size (by sl_kernel_rfl) y
/-- What the middle case leaves in the accumulator. -/
def sout1_B_0 (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond1_0 i) (hc1 : ¬cond1_1 i)
    (x0 : Vec F S512x2048 .f32) (x1 : Vec F S8192x512 .bf16) (x2 : Vec F S512x1 .f32) (x3 : Vec F S1x512 .f32) (xs0 : Vec F S512x512 .f32) : Vec F S512x512 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- The last case's store into the output block covers it. -/
theorem cover1_C_4 (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond1_0 i) (hc1 : cond1_1 i)
    (x0 : Vec F S512x2048 .f32) (x1 : Vec F S8192x512 .bf16) (x2 : Vec F S512x1 .f32) (x3 : Vec F S1x512 .f32) (xs0 : Vec F S512x512 .f32) (y : S512x512.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S512x512.size (by sl_kernel_rfl) y
/-- What the last case leaves in the output block. -/
def out1_C_4 (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond1_0 i) (hc1 : cond1_1 i)
    (x0 : Vec F S512x2048 .f32) (x1 : Vec F S8192x512 .bf16) (x2 : Vec F S512x1 .f32) (x3 : Vec F S1x512 .f32) (xs0 : Vec F S512x512 .f32) : Vec F S512x512 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)
theorem scover1_C_0 (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond1_0 i) (hc1 : cond1_1 i)
    (x0 : Vec F S512x2048 .f32) (x1 : Vec F S8192x512 .bf16) (x2 : Vec F S512x1 .f32) (x3 : Vec F S1x512 .f32) (xs0 : Vec F S512x512 .f32) (y : S512x512.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S512x512.size (by sl_kernel_rfl) y
/-- What the last case leaves in the accumulator. -/
def sout1_C_0 (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond1_0 i) (hc1 : cond1_1 i)
    (x0 : Vec F S512x2048 .f32) (x1 : Vec F S8192x512 .bf16) (x2 : Vec F S512x1 .f32) (x3 : Vec F S1x512 .f32) (xs0 : Vec F S512x512 .f32) : Vec F S512x512 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-! ## What the output block and the accumulator hold after each point -/

/-- After the body at position `n`: (the output's staging buffer, the accumulator) — the case `n % 4` selects, run on the
    point's input blocks, the middle and last cases over the accumulator the point before left. -/
def outsAt1 (c : Dev nD) : (n : ℕ) → n < cfg1.N → Vec F S512x512 .f32 × Vec F S512x512 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

/-- Before position `n`: at the first point every scoped buffer the pipeline does not stage at anything; afterwards the
    accumulator at what the point before left in it, the other scoped buffers at anything. -/
def PhiS1 (c : Dev nD) : (n : ℕ) → n ≤ cfg1.N → sProp 𝕄
  | 0, _ => Pipeline.ΦA spec1 c
  | n + 1, hn => iprop(iprop(o1a (F := F) c ∗ o1b (F := F) c ∗ o1c (F := F) c ∗ o1d (F := F) c ∗ o1e (F := F) c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(o1a (F := F) c ∗ o1b (F := F) c ∗ o1c (F := F) c ∗ o1d (F := F) c ∗ o1e (F := F) c ∗ owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(iprop(o1a (F := F) c ∗ o1b (F := F) c ∗ o1c (F := F) c ∗ o1d (F := F) c ∗ o1e (F := F) c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The arrays as the region finds them; after the body each input's buffer at its block and the output's at `outsAt1`;
    the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; `t % 4` says which case the point is in; the invariant
    hands the body the accumulator (at anything at the very first point and whenever the case zeroes it first, at what the
    point before left otherwise) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  rw [show (dat1 V c).leavesExact 3 t = owns (c : Thread nD τ) (ms1_3 t) fullShare ((dat1 V c).after 3 t) from by
        unfold Dat.leavesExact; rw [liveAt1_3 t], after1_3]
  by_cases h0 : t.val % 4 = 0
  · by_cases h1 : t.val % 4 = 3
    · exfalso; omega
    · rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨Ha, Hb, Hc, Hd, He, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [Ha Hb Hc Hd He HS0 Hg]
        · isplitl [Ha Hb Hc Hd He HS0]
          · isplitl [Ha]; · iexact Ha
            isplitl [Hb]; · iexact Hb
            isplitl [Hc]; · iexact Hc
            isplitl [Hd]; · iexact Hd
            isplitl [He]; · iexact He
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨Ha, Hb, Hc, Hd, He, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [Ha Hb Hc Hd He HS0 Hg]
        · isplitl [Ha Hb Hc Hd He HS0]
          · isplitl [Ha]; · iexact Ha
            isplitl [Hb]; · iexact Hb
            isplitl [Hc]; · iexact Hc
            isplitl [Hd]; · iexact Hd
            isplitl [He]; · iexact He
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 4 = 3
    · rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      rw [PhiS1_castSucc V c t, PhiS1_pos V c _ _ hz]
      iintro ⟨⟨⟨Ha, Hb, Hc, Hd, He, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨Ha, Hb, Hc, Hd, He, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry form back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha, Hb, Hc, Hd, He, HS0⟩, Hg⟩
  isplitl [Ha Hb Hc Hd He HS0]
  · isplitl [Ha]; · iexact Ha
    isplitl [Hb]; · iexact Hb
    isplitl [Hc]; · iexact Hc
    isplitl [Hd]; · iexact Hd
    isplitl [He]; · iexact He
    iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Fr

end
-- ==== Proof.KernelIdealFr.Assemble.lean ====
/-
  The program's run as three items — the degree kernel's region, the host stretch that turns degrees into the row
  factors and the projected features, the aggregation kernel's region — and what every unscoped buffer of the core
  holds at the end: a fold from the launch memory (`W0`) through what the first region leaves (`W1`), the host
  operations (`W2`) and what the second region leaves (`W3`). The arguments walk back through the fold to the launch
  memory; the result buffer is the second region's output array after its last write-back.
-/
import proofs.«151604_j6854767805296_2_alg».proof.Proof.KernelIdealFr.R0Frame
import proofs.«151604_j6854767805296_2_alg».proof.Proof.KernelIdealFr.R1Frame
import proofs.«151604_j6854767805296_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host stretch. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- The host stretch leaves every buffer it does not write as it found it. -/
theorem W2_of (c : Dev nD) (r : Ref sig .tc) (h : r ∉ (hostOps1_W : List (Ref sig .tc))) :
    W2 m c (Proc.devRef .tc r) = W1 m c (Proc.devRef .tc r) :=
  StableHlo.after_of_writes_sub hostOps1 _ hostOps1_writes h

/-- After the second region. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

theorem W3_main_arg0 (c : Dev nD) : W3 m c (Proc.devRef .tc main_arg0) = m ((c : Thread nD τ).loc main_arg0) :=
  (W3_of_ne m c main_arg0 (by decide)).trans ((W2_of m c main_arg0 (by decide)).trans ((W1_of_ne m c main_arg0 (by decide)).trans rfl))
theorem W3_main_arg2 (c : Dev nD) : W3 m c (Proc.devRef .tc main_arg2) = m ((c : Thread nD τ).loc main_arg2) :=
  (W3_of_ne m c main_arg2 (by decide)).trans ((W2_of m c main_arg2 (by decide)).trans ((W1_of_ne m c main_arg2 (by decide)).trans rfl))
theorem W3_main_arg3 (c : Dev nD) : W3 m c (Proc.devRef .tc main_arg3) = m ((c : Thread nD τ).loc main_arg3) :=
  (W3_of_ne m c main_arg3 (by decide)).trans ((W2_of m c main_arg3 (by decide)).trans ((W1_of_ne m c main_arg3 (by decide)).trans rfl))
/-- The adjacency matrix is an input window's array of both regions: each leaves it as it found it. -/
theorem W1_main_arg1 (c : Dev nD) : W1 m c (Proc.devRef .tc main_arg1) = m ((c : Thread nD τ).loc main_arg1) :=
  (W1_arr m c 0).trans (((dat0 (V0 m) c).arrAt_in 0 rfl _).trans ((A_eq0 (V0 m) c 0).trans rfl))
theorem W2_main_arg1 (c : Dev nD) : W2 m c (Proc.devRef .tc main_arg1) = m ((c : Thread nD τ).loc main_arg1) :=
  (W2_of m c main_arg1 (by decide)).trans (W1_main_arg1 m c)
theorem W3_main_arg1 (c : Dev nD) : W3 m c (Proc.devRef .tc main_arg1) = m ((c : Thread nD τ).loc main_arg1) :=
  (W3_arr m c 0).trans (((dat1 (V2 m) c).arrAt_in 0 rfl _).trans ((A_eq1 (V2 m) c 0).trans (W2_main_arg1 m c)))
/-- The result buffer holds the second region's output array after its last write-back. -/
theorem W3_main_v11 (c : Dev nD) : W3 m c (Proc.devRef .tc main_v11) = (dat1 (V2 m) c).arrAt 4 cfg1.N :=
  W3_arr m c 4

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as items -/

set_option backward.isDefEq.respectTransparency.types false in
/-- The degree kernel's region: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (V0 m) c)
    unfold Pipeline.ΦA
    iintro ⟨Hp, -, Hr⟩
    isplitl [Hr]; · iexact Hr
    iexact Hp
  hout c := by
    refine (show (pdats m 0 c).Φ (Fin.last _) ⊢ (Pipeline.ΦA spec0 c : sProp 𝕄) from hout0 (V0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation kernel's region: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V2 m) c)
    unfold Pipeline.ΦA
    iintro ⟨Hp, -, Hr⟩
    isplitl [Hr]; · iexact Hr
    iexact Hp
  hout c := by
    refine (show (pdats m 1 c).Φ (Fin.last _) ⊢ (Pipeline.ΦA spec1 c : sProp 𝕄) from hout1 (V2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds every unscoped buffer of every core at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

/-- The run with the result named: the result buffer ends at the second region's output array after its last
    write-back, the arguments as launched. -/
theorem run_result : θ_run defs (onTc (τ := τ) (main (F := F))) ⟨m, fun _ => 0, ρ⟩ (fun r => ∀ c : Dev nD,
      r.2.mem ((c.tc : Thread nD τ).loc main_v11) = (dat1 (V2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v11 (by decide))).trans (W3_main_v11 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.KernelIdeal.Fr

end
-- ==== Proof.KernelIdealFr.Pieces.lean ====
/-
  What each control case of the two kernels leaves in its accumulator and in its output block, as the kernels' payload
  terms of the blocks the case is run on.

  A case's run lists the pieces its stores leave (last first). Every store of these kernels goes through the whole
  buffer at zero offsets, so the last store's payload is what the buffer reads afterwards; every load but one reads a
  whole buffer at zero offsets, so it reads the buffer's contents (or, after a store of the same run, that store's
  payload). The one partial load is the aggregation kernel's slice of 2048 rows of the projected features, `gsl`.
-/
import proofs.«151604_j6854767805296_2_alg».proof.Proof.KernelIdealFr.R0Frame
import proofs.«151604_j6854767805296_2_alg».proof.Proof.KernelIdealFr.R1Frame
import Idealize.ShloMosaic.Lib.Pipeline.Value
import Idealize.ShloMosaic.Lib.Tactic
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 access, as the constant function. -/
theorem hz : (![0, 0] : Fin 2 → Nat) = fun _ => 0 := funext fun a => by fin_cases a <;> rfl

/-! ## The degree kernel -/

/-- First column tile: the accumulator is zeroed, read back, and the tile's row sums added: it is left at the row sums
    added to the zero block. -/
theorem sout0_A_eq (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x2048 .f32) :
    sout0_A_0 c i arg2 harg2 arg3 harg3 arg4 harg4 hc0 hc1 x0 = k0_pay2 (k0_pay1 (F := F)) x0 := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S1024x1) hz, View.readCov_unit_zero (S := S1024x1) _ hz]
  simp only [View.readAt_eq_ld, harg2.read_unread, View.ld_unit_zero (S := S1024x2048) hz]

/-- A middle column tile: the accumulator is left at the tile's row sums added to what it held. -/
theorem sout0_B_eq (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x2048 .f32) (xs0 : Vec F S1024x1 .f32) :
    sout0_B_0 c i arg2 harg2 arg3 harg3 arg4 harg4 hc0 hc1 x0 xs0 = k0_pay2 xs0 x0 := by
  unfold sout0_B_0
  rw [View.read_writes_eq_canon _ _ _ (scover0_B_0 c i arg2 harg2 arg3 harg3 arg4 harg4 hc0 hc1 x0 xs0)]
  unfold kernelRun0_B
  dsimp only
  rw [View.canon_unit_zero hz]
  simp only [View.readAt_eq_ld, harg2.read_unread, harg4.read_unread, View.ld_unit_zero (S := S1024x1) hz,
    View.ld_unit_zero (S := S1024x2048) hz]

/-- The last column tile: the accumulator is left as in a middle tile, -/
theorem sout0_C_eq (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) :
    sout0_C_0 c i arg2 harg2 arg3 harg3 arg4 harg4 hc0 hc1 x0 xs0 = k0_pay2 xs0 x0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero hz]
  simp only [View.readAt_eq_ld, harg2.read_unread, harg4.read_unread, View.ld_unit_zero (S := S1024x1) hz,
    View.ld_unit_zero (S := S1024x2048) hz]

/-- and the output block receives the accumulator read back after that store: the same term. -/
theorem out0_C_eq (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x2048 .f32) (xs0 : Vec F S1024x1 .f32) :
    out0_C_1 c i arg2 harg2 arg3 harg3 arg4 harg4 hc0 hc1 x0 xs0 = k0_pay2 xs0 x0 := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero hz, View.readCov_unit_zero (S := S1024x1) _ hz]
  simp only [View.readAt_eq_ld, harg2.read_unread, harg4.read_unread, View.ld_unit_zero (S := S1024x1) hz,
    View.ld_unit_zero (S := S1024x2048) hz]

/-! ## The aggregation kernel -/

/-- The 2048 rows of the projected features the body loads at column tile `i 1`: rows `2048 · (i 1)` onwards. -/
def gsl (i : grid1.Coords) (x1 : Vec F S8192x512 .bf16) : Vec F S2048x512 .bf16 :=
  View.ld x1 (Rect.unit (s := S8192x512) (k1_off1 i) S2048x512.size (k1_off1_inb i))

/-- Row `l` of the slice is row `2048 · (i 1) + l` of the array: a unit-stride rectangle's index is its offset plus
    the coordinate, and the offsets are `(2048 · (i 1), 0)`. -/
theorem gsl_apply (i : grid1.Coords) (x1 : Vec F S8192x512 .bf16) (l : Fin 2048) (q : Fin 512) :
    gsl i x1 (ValueIdx.ix2 l q)
      = x1 (ValueIdx.ix2 (⟨2048 * (i 1).val + l.val, by
          have h4 : (i 1).val < 4 := (i 1).isLt
          have := l.isLt
          omega⟩ : Fin 8192) q) := by
  unfold gsl
  show x1 ((Rect.unit (s := S8192x512) (k1_off1 i) S2048x512.size (k1_off1_inb i)).idx (ValueIdx.ix2 l q)) = _
  refine congrArg x1 (funext fun a => Fin.ext ?_)
  match a with
  | ⟨0, _⟩ =>
    show k1_off1 i 0 + 1 * l.val = 2048 * (i 1).val + l.val
    rw [k1_off1_eq i]
    show 2048 * (i 1).val + 1 * l.val = _
    omega
  | ⟨1, _⟩ =>
    show k1_off1 i 1 + 1 * q.val = q.val
    rw [k1_off1_eq i]
    show 0 + 1 * q.val = _
    omega

/-- First column tile: the accumulator is zeroed, read back, and the tile's product added: it is left at the product of
    the adjacency tile with the feature slice added to the zero block. -/
theorem sout1_A_eq (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond1_0 i) (hc1 : ¬cond1_1 i)
    (x0 : Vec F S512x2048 .f32) (x1 : Vec F S8192x512 .bf16) (x2 : Vec F S512x1 .f32) (x3 : Vec F S1x512 .f32) :
    sout1_A_0 c i arg2 harg2 arg3 harg3 arg4 harg4 arg5 harg5 arg6 harg6 arg7 harg7 hc0 hc1 x0 x1 x2 x3 = k1_pay2 x0 (gsl i x1) (k1_pay1 (F := F)) := by
  unfold sout1_A_0
  rw [View.read_writes_eq_canon _ _ _ (scover1_A_0 c i arg2 harg2 arg3 harg3 arg4 harg4 arg5 harg5 arg6 harg6 arg7 harg7 hc0 hc1 x0 x1 x2 x3)]
  unfold kernelRun1_A
  dsimp only
  sl_unfold_words
  rw [View.canon_cons_unit_zero (S := S512x512) hz, View.readCov_unit_zero (S := S512x512) _ hz]
  simp only [View.readAt_eq_ld, harg2.read_unread, harg3.read_unread, View.ld_unit_zero (S := S512x2048) hz]
  rfl

/-- A middle column tile: the accumulator is left at the tile's product added to what it held. -/
theorem sout1_B_eq (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond1_0 i) (hc1 : ¬cond1_1 i)
    (x0 : Vec F S512x2048 .f32) (x1 : Vec F S8192x512 .bf16) (x2 : Vec F S512x1 .f32) (x3 : Vec F S1x512 .f32) (xs0 : Vec F S512x512 .f32) :
    sout1_B_0 c i arg2 harg2 arg3 harg3 arg4 harg4 arg5 harg5 arg6 harg6 arg7 harg7 hc0 hc1 x0 x1 x2 x3 xs0 = k1_pay2 x0 (gsl i x1) xs0 := by
  unfold sout1_B_0
  rw [View.read_writes_eq_canon _ _ _ (scover1_B_0 c i arg2 harg2 arg3 harg3 arg4 harg4 arg5 harg5 arg6 harg6 arg7 harg7 hc0 hc1 x0 x1 x2 x3 xs0)]
  unfold kernelRun1_B
  dsimp only
  rw [View.canon_unit_zero hz]
  simp only [View.readAt_eq_ld, harg2.read_unread, harg3.read_unread, harg7.read_unread,
    View.ld_unit_zero (S := S512x2048) hz, View.ld_unit_zero (S := S512x512) hz]
  rfl

/-- The last column tile: the accumulator is left as in a middle tile, -/
theorem sout1_C_eq (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond1_0 i) (hc1 : cond1_1 i)
    (x0 : Vec F S512x2048 .f32) (x1 : Vec F S8192x512 .bf16) (x2 : Vec F S512x1 .f32) (x3 : Vec F S1x512 .f32) (xs0 : Vec F S512x512 .f32) :
    sout1_C_0 c i arg2 harg2 arg3 harg3 arg4 harg4 arg5 harg5 arg6 harg6 arg7 harg7 hc0 hc1 x0 x1 x2 x3 xs0 = k1_pay2 x0 (gsl i x1) xs0 := by
  unfold sout1_C_0
  rw [View.read_writes_eq_canon _ _ _ (scover1_C_0 c i arg2 harg2 arg3 harg3 arg4 harg4 arg5 harg5 arg6 harg6 arg7 harg7 hc0 hc1 x0 x1 x2 x3 xs0)]
  unfold kernelRun1_C
  dsimp only
  sl_unfold_words
  rw [View.canon_unit_zero hz]
  simp only [View.readAt_eq_ld, harg2.read_unread, harg3.read_unread, harg7.read_unread,
    View.ld_unit_zero (S := S512x2048) hz, View.ld_unit_zero (S := S512x512) hz]
  rfl

/-- and the output block receives the accumulator read back after that store, scaled by the row factors, plus the bias. -/
theorem out1_C_eq (c : Dev nD) (i : grid1.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond1_0 i) (hc1 : cond1_1 i)
    (x0 : Vec F S512x2048 .f32) (x1 : Vec F S8192x512 .bf16) (x2 : Vec F S512x1 .f32) (x3 : Vec F S1x512 .f32) (xs0 : Vec F S512x512 .f32) :
    out1_C_4 c i arg2 harg2 arg3 harg3 arg4 harg4 arg5 harg5 arg6 harg6 arg7 harg7 hc0 hc1 x0 x1 x2 x3 xs0 = k1_pay3 x2 (k1_pay2 x0 (gsl i x1) xs0) x3 := by
  unfold out1_C_4
  rw [View.read_writes_eq_canon _ _ _ (cover1_C_4 c i arg2 harg2 arg3 harg3 arg4 harg4 arg5 harg5 arg6 harg6 arg7 harg7 hc0 hc1 x0 x1 x2 x3 xs0)]
  unfold kernelRun1_C
  dsimp only
  sl_unfold_words
  rw [View.canon_unit_zero hz, View.readCov_unit_zero (S := S512x512) _ hz]
  simp only [View.readAt_eq_ld, harg2.read_unread, harg3.read_unread, harg4.read_unread, harg5.read_unread,
    harg7.read_unread, View.ld_unit_zero (S := S512x2048) hz, View.ld_unit_zero (S := S512x512) hz,
    View.ld_unit_zero (S := S512x1) hz, View.ld_unit_zero (S := S1x512) hz]
  rfl

end Cert.KernelIdeal.Fr

end
-- ==== Proof.Payload.lean ====
/-
  The values the two kernel bodies store, read at one index, over the extended reals.

  Each stored value is one pure term of the values the body loaded (the generated payloads). Read at the index (p, q):
  * the first stores of both bodies clear their accumulator: the value is 0;
  * the degree body adds to its accumulator the sum of a row of the loaded adjacency block — the row sum comes back
    as a vector of length 1024 and is viewed as a column, which reads the same number;
  * the layer body adds to its accumulator the product of the loaded adjacency block (narrowing its format changes no
    value here) with the loaded block of projected features: at (p, q) the sum over the 2048 shared coordinates;
  * the layer body's last store scales row p of the accumulator by the row's normalising factor, a column spread over
    the 512 output columns, and adds the bias, a row spread over the 512 rows.
-/
import proofs.«151604_j6854767805296_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-! ### Two layout forms: a vector viewed as a column, a column spread over the columns -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, c)`, the column's entry of row `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-! ### The degree body -/

theorem pay0_1_apply (p : Fin 1024) (q : Fin 1) : k0_pay1 (F := Ideal) (ix2 p q) = 0 := by
  unfold k0_pay1
  rw [shapeCast_self]
  exact Ideal.ofBits_zero_f32

/-- The sum along the rows of the loaded block, at row `p`. -/
theorem rowSum_apply (v4 : FVec Ideal S1024x2048 .f32) (hφ : FKind.Formats .f32)
    (hacc : (0x00000000#32 : BitVec 32) = 0x00000000#32) (p : Fin 1024) :
    multiReduction (F := Ideal) .add [1] S1024 v4 0x00000000#32 reduces_S1024x2048_S1024 hφ hacc (ix1 p)
      = ∑ l : Fin 2048, v4 (ix2 p l) := by
  refine (Ideal.multiReduction_add_single v4 0x00000000#32 reduces_S1024x2048_S1024 hφ hacc (ix1 p)).trans ?_
  refine Finset.sum_congr rfl fun l _ => congrArg v4 ?_
  funext a
  match a with
  | ⟨0, _⟩ => rfl
  | ⟨1, _⟩ => rfl

theorem pay0_2_apply (v3 : Vec Ideal S1024x1 .f32) (v4 : Vec Ideal S1024x2048 .f32) (p : Fin 1024) (q : Fin 1) :
    k0_pay2 v3 v4 (ix2 p q) = v3 (ix2 p q) + ∑ l : Fin 2048, v4 (ix2 p l) := by
  unfold k0_pay2
  rw [shapeCast_self, addf_apply, shapeCast_a_a1_apply, rowSum_apply]

/-! ### The layer body -/

theorem pay1_1_apply (p q : Fin 512) : k1_pay1 (F := Ideal) (ix2 p q) = 0 := by
  unfold k1_pay1
  rw [shapeCast_self]
  exact Ideal.ofBits_zero_f32

/-! The operand indices of the body's contraction (rows of the left block against columns of the right one), at an
    output index and a contraction index: the kept coordinate is the output's, the contracted one the contraction's. -/

theorem lhs_0 (i : S512x512.Idx) (k : dot_S512x2048_S2048x512_S512x512_1_0_0_1_n_n.contr.Idx) :
    (dot_S512x2048_S2048x512_S512x512_1_0_0_1_n_n.lhsIdx i k 0).val = (i 0).val := by
  unfold DotDims.lhsIdx
  rw [dif_neg (show ¬(0 : Fin S512x2048.rank) ∈ dot_S512x2048_S2048x512_S512x512_1_0_0_1_n_n.lhsBatch by decide),
    dif_pos (show (0 : Fin S512x2048.rank) ∈ dot_S512x2048_S2048x512_S512x512_1_0_0_1_n_n.lhsNonContracting by decide)]
  rfl
theorem lhs_1 (i : S512x512.Idx) (k : dot_S512x2048_S2048x512_S512x512_1_0_0_1_n_n.contr.Idx) :
    (dot_S512x2048_S2048x512_S512x512_1_0_0_1_n_n.lhsIdx i k 1).val = (k ⟨0, by decide⟩).val :=
  dot_S512x2048_S2048x512_S512x512_1_0_0_1_n_n.lhsIdx_val_of_single rfl i k
theorem rhs_0 (i : S512x512.Idx) (k : dot_S512x2048_S2048x512_S512x512_1_0_0_1_n_n.contr.Idx) :
    (dot_S512x2048_S2048x512_S512x512_1_0_0_1_n_n.rhsIdx i k 0).val = (k ⟨0, by decide⟩).val :=
  dot_S512x2048_S2048x512_S512x512_1_0_0_1_n_n.rhsIdx_val_of_single rfl i k
theorem rhs_1 (i : S512x512.Idx) (k : dot_S512x2048_S2048x512_S512x512_1_0_0_1_n_n.contr.Idx) :
    (dot_S512x2048_S2048x512_S512x512_1_0_0_1_n_n.rhsIdx i k 1).val = (i 1).val := by
  unfold DotDims.rhsIdx
  rw [dif_neg (show ¬(1 : Fin S2048x512.rank) ∈ dot_S512x2048_S2048x512_S512x512_1_0_0_1_n_n.rhsBatch by decide),
    dif_pos (show (1 : Fin S2048x512.rank) ∈ dot_S512x2048_S2048x512_S512x512_1_0_0_1_n_n.rhsNonContracting by decide)]
  rfl

/-- The product into the zero accumulator, at `(p, q)`: the sum over the 2048 shared coordinates. -/
theorem matmul_zero_apply (lhs : FVec Ideal S512x2048 .bf16) (rhs : FVec Ideal S2048x512 .bf16) (p q : Fin 512) :
    matmul dot_S512x2048_S2048x512_S512x512_1_0_0_1_n_n none lhs rhs (constant (F := Ideal) S512x512 .f32 0x00000000#32) (ix2 p q)
      = ∑ l : Fin 2048, lhs (ix2 p l) * rhs (ix2 l q) := by
  simp only [matmul]
  rw [Ideal.matmul_constant_zero_apply, ← Equiv.sum_comp (contrEquiv1 dot_S512x2048_S2048x512_S512x512_1_0_0_1_n_n 2048 rfl rfl).symm]
  refine Finset.sum_congr rfl fun l _ => ?_
  have hk := contrEquiv1_symm_val dot_S512x2048_S2048x512_S512x512_1_0_0_1_n_n 2048 rfl rfl l
  have el : dot_S512x2048_S2048x512_S512x512_1_0_0_1_n_n.lhsIdx (ix2 p q) ((contrEquiv1 dot_S512x2048_S2048x512_S512x512_1_0_0_1_n_n 2048 rfl rfl).symm l) = ix2 p l :=
    funext fun a => Fin.ext (by
      match a with
      | ⟨0, _⟩ => exact lhs_0 _ _
      | ⟨1, _⟩ => exact (lhs_1 _ _).trans hk)
  have er : dot_S512x2048_S2048x512_S512x512_1_0_0_1_n_n.rhsIdx (ix2 p q) ((contrEquiv1 dot_S512x2048_S2048x512_S512x512_1_0_0_1_n_n 2048 rfl rfl).symm l) = ix2 l q :=
    funext fun a => Fin.ext (by
      match a with
      | ⟨0, _⟩ => exact (rhs_0 _ _).trans hk
      | ⟨1, _⟩ => exact rhs_1 _ _)
  rw [el, er]

theorem pay1_2_apply (v3 : Vec Ideal S512x2048 .f32) (v8 : Vec Ideal S2048x512 .bf16) (v10 : Vec Ideal S512x512 .f32)
    (p q : Fin 512) :
    k1_pay2 v3 v8 v10 (ix2 p q) = v10 (ix2 p q) + ∑ l : Fin 2048, v3 (ix2 p l) * v8 (ix2 l q) := by
  unfold k1_pay2
  rw [shapeCast_self, shapeCast_self, addf_apply, matmul_zero_apply]
  rfl

theorem pay1_3_apply (v19 : Vec Ideal S512x1 .f32) (v21 : Vec Ideal S512x512 .f32) (v24 : Vec Ideal S1x512 .f32)
    (p q : Fin 512) :
    k1_pay3 v19 v21 v24 (ix2 p q) = v19 (ix2 p (0 : Fin 1)) * v21 (ix2 p q) + v24 (ix2 (0 : Fin 1) q) := by
  unfold k1_pay3
  rw [addf_apply, mulf_apply, broadcastTo_a1_ab_apply, broadcastTo_1b_ab_apply, shapeCast_self, shapeCast_self]

end Cert.KernelIdeal.Pay

end
-- ==== Proof.Spec.lean ====
/-
  The two closed forms this certificate joins, over plain index types and the extended reals.

  A graph-convolution layer with symmetric normalisation: with the adjacency matrix `A` (8192 × 8192), the features
  `X` (8192 × 512), the weight `Wt` (512 × 512, `Wt o k` the weight of input feature `k` in output `o`), the bias `B`,
  a small constant `e` and an exponent `h`:  deg i = Σ_j A i j,  dis i = (deg i + e) ^ h,  and the layer's output is
  out i o = Σ_k (Σ_j (dis i · A i j · dis j) · X j k) · Wt o k + B o.

  `outR` is that formula as the reference spells it. `outK` is the kernel's arrangement: the row sums taken in four
  column blocks of 2048; the projection g j o = Σ_k (dis j · X j k) · Wt o k computed first; then
  out i o = dis i · (Σ over the four column blocks Σ_l A i (blk k l) · g (blk k l) o) + B o.
  The two agree when every entry is a real number (`Proof/Algebra.lean`): the rearrangement moves factors across sums,
  which the infinities of the extended reals do not allow in general.
-/
import Idealize.ShloMosaic.PureOps.Ideal

noncomputable section

open Idealize.ShloMosaic
open scoped BigOperators

namespace Cert.Spec

/-- Column `l` of column block `k`: the columns of the 8192-wide adjacency matrix in four blocks of 2048. -/
def blk (k : Fin 4) (l : Fin 2048) : Fin 8192 := ⟨2048 * k.val + l.val, by have := k.isLt; have := l.isLt; omega⟩

@[simp] theorem blk_val (k : Fin 4) (l : Fin 2048) : (blk k l).val = 2048 * k.val + l.val := rfl

section
variable (A : Fin 8192 → Fin 8192 → EReal) (X : Fin 8192 → Fin 512 → EReal) (Wt : Fin 512 → Fin 512 → EReal)
  (B : Fin 512 → EReal) (e h : EReal)

/-! ### The kernel's arrangement -/

/-- A row's degree, summed block by block. -/
def degK (i : Fin 8192) : EReal := ∑ k : Fin 4, ∑ l : Fin 2048, A i (blk k l)
/-- The normalising factor of a row. -/
def disK (i : Fin 8192) : EReal := Ideal.pow (degK A i + e) h
/-- The projected, pre-scaled features. -/
def gK (j : Fin 8192) (o : Fin 512) : EReal := ∑ k : Fin 512, (disK A e h j * X j k) * Wt o k
/-- The kernel's output. -/
def outK (i : Fin 8192) (o : Fin 512) : EReal :=
  disK A e h i * (∑ k : Fin 4, ∑ l : Fin 2048, A i (blk k l) * gK A X Wt e h (blk k l) o) + B o

/-! ### The reference's arrangement -/

/-- A row's degree. -/
def degR (i : Fin 8192) : EReal := ∑ j : Fin 8192, A i j
/-- The normalising factor of a row. -/
def disR (i : Fin 8192) : EReal := Ideal.pow (degR A i + e) h
/-- The reference's output. -/
def outR (i : Fin 8192) (o : Fin 512) : EReal :=
  (∑ k : Fin 512, (∑ j : Fin 8192, ((disR A e h i * A i j) * disR A e h j) * X j k) * Wt o k) + B o

end

end Cert.Spec

end
-- ==== Proof.KernelIdealFr.Value0.lean ====
/-
  What the degree kernel leaves in its result array, at the ideal instance: entry (i, 0) is the i-th row sum of the
  adjacency matrix, the four column tiles' partial sums added in tile order.

  The accumulator after grid point n (row tile n / 4, column tile n % 4) holds, in row p, the sum over the column tiles
  0 … n % 4 of the tile's p-th row sum: by induction on the point — the first column tile starts from the zero block, every
  other adds its tile to what the point before left. The last column tile copies the accumulator to the output block,
  which is written back to rows 1024·(n / 4) … of the result; the eight row tiles cover the 8192 rows.
-/
import proofs.«151604_j6854767805296_2_alg».proof.Proof.KernelIdealFr.Pieces
import proofs.«151604_j6854767805296_2_alg».proof.Proof.Payload
import proofs.«151604_j6854767805296_2_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr Cert.KernelIdeal.Pay
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The adjacency matrix as the region finds it, over natural-number indices (zero outside the matrix). -/
def An (c : Dev nD) (i j : ℕ) : EReal :=
  if h : i < 8192 ∧ j < 8192 then (V c main_arg1 : S8192x8192.Idx → EReal) (ix2 ⟨i, h.1⟩ ⟨j, h.2⟩) else 0

theorem N0 : cfg0.N = 32 := N_0

/-- The index maps over the grid: the adjacency tile of point t is (t / 4, t % 4), the output block (t / 4, 0). -/
theorem idx0_facts : ∀ t : Fin cfg0.N, win0_0.index t (0 : Fin 2) = t.val / 4 ∧ win0_0.index t (1 : Fin 2) = t.val % 4
    ∧ win0_1.index t (0 : Fin 2) = t.val / 4 ∧ win0_1.index t (1 : Fin 2) = 0 :=
  (by decide +kernel : ∀ t : Fin grid0.N, _)

/-- The adjacency tile of point t, entry (p, l), is the matrix's entry (1024·(t / 4) + p, 2048·(t % 4) + l). -/
theorem iblk0_apply (c : Dev nD) (t : Fin cfg0.N) (p : Fin 1024) (l : Fin 2048) :
    (iblk0 V c 0 t : S1024x2048.Idx → EReal) (ix2 p l) = An V c (1024 * (t.val / 4) + p.val) (2048 * (t.val % 4) + l.val) := by
  have hN := N0
  have ht := t.isLt
  obtain ⟨e0, e1, -, -⟩ := idx0_facts t
  have hb : 1024 * (t.val / 4) + p.val < 8192 ∧ 2048 * (t.val % 4) + l.val < 8192 := by
    have := p.isLt; have := l.isLt; omega
  unfold An
  rw [dif_pos hb]
  show (V c main_arg1 : S8192x8192.Idx → EReal) (((cfg0.win 0).blk t).view.emb (ix2 p l)) = _
  refine congrArg _ (funext fun a => Fin.ext ?_)
  match a with
  | ⟨0, _⟩ => show win0_0.index t (0 : Fin 2) * 1024 + 1 * p.val = 1024 * (t.val / 4) + p.val; omega
  | ⟨1, _⟩ => show win0_0.index t (1 : Fin 2) * 2048 + 1 * l.val = 2048 * (t.val % 4) + l.val; omega

/-- Row p's partial degree after the column tiles 0 … k of row tile r. -/
def part0 (c : Dev nD) (r k : ℕ) (p : ℕ) : EReal :=
  ∑ k' ∈ Finset.range (k + 1), ∑ l : Fin 2048, An V c (1024 * r + p) (2048 * k' + l.val)

/-- THE ACCUMULATOR after point n: row p holds the partial degree over the column tiles 0 … n % 4. -/
theorem acc0_eq (c : Dev nD) : ∀ (n : ℕ) (h : n < cfg0.N) (p : Fin 1024) (q : Fin 1),
    ((outsAt0 V c n h).2 : S1024x1.Idx → EReal) (ix2 p q) = part0 V c (n / 4) (n % 4) p.val
  | n, h, p, q => by
    have hN := N0
    by_cases h0 : n % 4 = 0
    · have h1 : ¬n % 4 = 3 := by omega
      rw [outsAt0_A V c ⟨n, h⟩ h0 h1, sout0_A_eq]
      dsimp only
      rw [pay0_2_apply, pay0_1_apply, zero_add]
      unfold part0
      rw [h0, Finset.sum_range_succ, Finset.range_zero, Finset.sum_empty, zero_add]
      refine Finset.sum_congr rfl fun l _ => ?_
      rw [iblk0_apply V c ⟨n, h⟩ p l]
      show An V c (1024 * (n / 4) + p.val) (2048 * (n % 4) + l.val) = _
      rw [h0]
    · have hn : n ≠ 0 := fun e => h0 (by rw [e])
      have hprev : n - 1 < cfg0.N := by omega
      have ih := acc0_eq c (n - 1) hprev p q
      have hd : (n - 1) / 4 = n / 4 := by omega
      have hm : (n - 1) % 4 + 1 = n % 4 := by omega
      have step : ∀ (acc : S1024x1.Idx → EReal), acc = (outsAt0 V c (n - 1) hprev).2 →
          k0_pay2 (F := Ideal) acc (iblk0 V c 0 ⟨n, h⟩) (ix2 p q) = part0 V c (n / 4) (n % 4) p.val := by
        intro acc hacc
        rw [pay0_2_apply, hacc, ih, hd]
        have hs : part0 V c (n / 4) (n % 4) p.val = part0 V c (n / 4) ((n - 1) % 4) p.val
            + ∑ l : Fin 2048, An V c (1024 * (n / 4) + p.val) (2048 * (n % 4) + l.val) := by
          unfold part0
          rw [← hm, Finset.sum_range_succ]
        rw [hs]
        refine congrArg _ (Finset.sum_congr rfl fun l _ => ?_)
        exact iblk0_apply V c ⟨n, h⟩ p l
      by_cases h1 : n % 4 = 3
      · rw [outsAt0_C V c ⟨n, h⟩ h0 h1, sout0_C_eq]
        dsimp only
        exact step _ rfl
      · rw [outsAt0_B V c ⟨n, h⟩ h0 h1, sout0_B_eq]
        dsimp only
        exact step _ rfl
  termination_by n => n
  decreasing_by omega

/-- THE OUTPUT BLOCK after a last-column-tile point: the accumulator's final contents, the whole row degrees. -/
theorem out0_eq (c : Dev nD) (n : ℕ) (h : n < cfg0.N) (h3 : n % 4 = 3) (p : Fin 1024) (q : Fin 1) :
    ((outsAt0 V c n h).1 : S1024x1.Idx → EReal) (ix2 p q) = part0 V c (n / 4) 3 p.val := by
  have hN := N0
  have h0 : ¬n % 4 = 0 := by omega
  have hprev : n - 1 < cfg0.N := by omega
  have e1 : ((outsAt0 V c n h).1 : S1024x1.Idx → EReal) = (outsAt0 V c n h).2 := by
    rw [outsAt0_C V c ⟨n, h⟩ h0 h3, out0_C_eq, sout0_C_eq]
  rw [e1, acc0_eq V c n h p q, h3]

/-- The result array of the degree kernel: entry (i, ·) is row i's degree. -/
def G0 (c : Dev nD) : S8192x1.Idx → EReal := fun idx => part0 V c 0 3 (idx 0).val

theorem part0_row (c : Dev nD) (r k p : ℕ) : part0 V c r k p = part0 V c 0 k (1024 * r + p) := by
  unfold part0; simp only [Nat.mul_zero, Nat.zero_add]

/-- WHAT A FLUSHING POINT WRITES BACK is its block of `G0`. -/
theorem flushed0_eq (c : Dev nD) (t : Fin cfg0.N) (hf : (cfg0.win 1).flush t = true) :
    (dat0 V c).flushed 1 t = ((cfg0.win 1).blk t).view.read (Elt Ideal) (G0 V c) := by
  have h3 : t.val % 4 = 3 := (flush0_1 t).mp hf
  obtain ⟨-, -, e2, e3⟩ := idx0_facts t
  show (cfg0.win 1).cut (grid0.coords t) ((dat0 V c).after 1 t) = _
  rw [after0_1]
  funext j
  obtain ⟨p, q, rfl⟩ : ∃ (p : Fin 1024) (q : Fin 1), j = ix2 p q := ⟨j 0, j 1, eq_ix2 j⟩
  show ((outsAt0 V c t.val t.isLt).1 : S1024x1.Idx → EReal) (ix2 p q) = G0 V c (((cfg0.win 1).blk t).view.emb (ix2 p q))
  rw [out0_eq V c t.val t.isLt h3 p q, part0_row]
  unfold G0
  refine congrArg (part0 V c 0 3) ?_
  show 1024 * (t.val / 4) + p.val = win0_1.index t (0 : Fin 2) * 1024 + 1 * p.val
  omega

/-- An index of the result array is in point t's block iff each coordinate is in the block's range. -/
theorem mem_blk0 (t : Fin cfg0.N) (i : S8192x1.Idx) :
    i ∈ ((cfg0.win 1).blk t).view.set ↔ ∀ a : Fin 2, win0_1.index t a * S1024x1.size a ≤ (i a).val ∧ (i a).val < win0_1.index t a * S1024x1.size a + S1024x1.size a := by
  show i ∈ ((View.whole main_v0).slice (win0_1.rect t)).set ↔ _
  rw [View.set_slice_whole, Rect.mem_set_unit]
  exact Iff.rfl

/-- Every row of the result is written back by the last column tile of its row tile. -/
theorem cover0 (i : S8192x1.Idx) : ∃ t : Fin cfg0.N, (cfg0.win 1).flush t = true ∧ i ∈ ((cfg0.win 1).blk t).view.set := by
  have hN := N0
  have hi0 : (i 0).val < 8192 := (i 0).isLt
  have hi1 : (i 1).val < 1 := (i 1).isLt
  let t : Fin cfg0.N := ⟨4 * ((i 0).val / 1024) + 3, by omega⟩
  have htv : t.val = 4 * ((i 0).val / 1024) + 3 := rfl
  obtain ⟨-, -, e2, e3⟩ := idx0_facts t
  refine ⟨t, (flush0_1 t).mpr (by omega), ?_⟩
  rw [mem_blk0]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 1 ≤ (i 1).val ∧ (i 1).val < win0_1.index t (1 : Fin 2) * 1 + 1; omega

/-- THE RESULT ARRAY of the degree kernel after its region. -/
theorem final0 (c : Dev nD) : (dat0 V c).arrAt 1 cfg0.N = G0 V c :=
  (dat0 V c).arrAt_eq_of_cover 1 (G0 V c) (fun t hf => flushed0_eq V c t hf) (cover0)

/-- Row i's degree in the kernel's block order is `Cert.Spec.degK` of the matrix. -/
theorem G0_apply (c : Dev nD) (i : Fin 8192) (q : Fin 1) :
    G0 V c (ix2 i q) = Cert.Spec.degK (fun i j => (V c main_arg1 : S8192x8192.Idx → EReal) (ix2 i j)) i := by
  unfold G0 part0 Cert.Spec.degK
  rw [Finset.sum_range (fun k' => ∑ l : Fin 2048, An V c (1024 * 0 + (ix2 i q 0).val) (2048 * k' + l.val))]
  refine Finset.sum_congr rfl fun k _ => Finset.sum_congr rfl fun l _ => ?_
  have hb : 1024 * 0 + i.val < 8192 ∧ 2048 * k.val + l.val < 8192 := by
    have := i.isLt; have := k.isLt; have := l.isLt; omega
  show An V c (1024 * 0 + i.val) (2048 * k.val + l.val) = _
  unfold An
  rw [dif_pos hb]
  refine congrArg _ (funext fun a => Fin.ext ?_)
  match a with
  | ⟨0, _⟩ => show 1024 * 0 + i.val = i.val; omega
  | ⟨1, _⟩ => rfl

end Cert.KernelIdeal.Val

end
-- ==== Proof.KernelIdealFr.Value1.lean ====
/-
  What the aggregation kernel leaves in its result array, at the ideal instance, as a function of the four arrays it
  reads (the adjacency matrix, the projected features g, the row factors d, the bias b, as its region finds them):
  entry (i, o) is d i · (Σ over the four column tiles k' Σ_l A i (2048·k' + l) · g (2048·k' + l) o) + b o.

  The accumulator after grid point n (row tile n / 4, column tile n % 4) holds, at (p, q), the sum over the column tiles
  0 … n % 4 of the tile's product with the matching 2048 rows of g: by induction on the point. The last column tile
  writes (row factor · accumulator + bias) to the output block, written back to rows 512·(n / 4) … of the result; the
  sixteen row tiles cover the 8192 rows.
-/
import proofs.«151604_j6854767805296_2_alg».proof.Proof.KernelIdealFr.Value0

set_option maxRecDepth 16384

noncomputable section

namespace Cert.KernelIdeal.Val

open Cert.KernelIdeal Cert.KernelIdeal.Gen Cert.KernelIdeal.Fr Cert.KernelIdeal.Pay
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The projected features, the row factors and the bias as the region finds them, over natural-number indices. -/
def Gn (c : Dev nD) (j o : ℕ) : EReal :=
  if h : j < 8192 ∧ o < 512 then (V c main_v9 : S8192x512.Idx → EReal) (ix2 ⟨j, h.1⟩ ⟨o, h.2⟩) else 0
def Dn (c : Dev nD) (i : ℕ) : EReal :=
  if h : i < 8192 then (V c main_v4 : S8192x1.Idx → EReal) (ix2 ⟨i, h⟩ (0 : Fin 1)) else 0
def Bn (c : Dev nD) (o : ℕ) : EReal :=
  if h : o < 512 then (V c main_v10 : S1x512.Idx → EReal) (ix2 (0 : Fin 1) ⟨o, h⟩) else 0

theorem N1 : cfg1.N = 64 := N_1

/-- The index maps over the grid, and the column tile as the body reads it. -/
theorem idx1_facts : ∀ t : Fin cfg1.N, win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = t.val / 4 ∧ win1_2.index t (1 : Fin 2) = 0
    ∧ win1_3.index t (0 : Fin 2) = 0 ∧ win1_3.index t (1 : Fin 2) = 0
    ∧ win1_4.index t (0 : Fin 2) = t.val / 4 ∧ win1_4.index t (1 : Fin 2) = 0
    ∧ (grid1.coords t 1).val = t.val % 4 :=
  (by decide +kernel : ∀ t : Fin grid1.N, _)

theorem iblk1_0_apply (c : Dev nD) (t : Fin cfg1.N) (p : Fin 512) (l : Fin 2048) :
    (iblk1 V c 0 t : S512x2048.Idx → EReal) (ix2 p l) = An V c (512 * (t.val / 4) + p.val) (2048 * (t.val % 4) + l.val) := by
  have hN := N1
  have ht := t.isLt
  obtain ⟨e0, e1, -⟩ := idx1_facts t
  have hb : 512 * (t.val / 4) + p.val < 8192 ∧ 2048 * (t.val % 4) + l.val < 8192 := by
    have := p.isLt; have := l.isLt; omega
  unfold An
  rw [dif_pos hb]
  show (V c main_arg1 : S8192x8192.Idx → EReal) (((cfg1.win 0).blk t).view.emb (ix2 p l)) = _
  refine congrArg _ (funext fun a => Fin.ext ?_)
  match a with
  | ⟨0, _⟩ => show win1_0.index t (0 : Fin 2) * 512 + 1 * p.val = 512 * (t.val / 4) + p.val; omega
  | ⟨1, _⟩ => show win1_0.index t (1 : Fin 2) * 2048 + 1 * l.val = 2048 * (t.val % 4) + l.val; omega

theorem iblk1_1_apply (c : Dev nD) (t : Fin cfg1.N) (j : Fin 8192) (q : Fin 512) :
    (iblk1 V c 1 t : S8192x512.Idx → EReal) (ix2 j q) = Gn V c j.val q.val := by
  obtain ⟨-, -, e0, e1, -⟩ := idx1_facts t
  unfold Gn
  rw [dif_pos ⟨j.isLt, q.isLt⟩]
  show (V c main_v9 : S8192x512.Idx → EReal) (((cfg1.win 1).blk t).view.emb (ix2 j q)) = _
  refine congrArg _ (funext fun a => Fin.ext ?_)
  match a with
  | ⟨0, _⟩ => show win1_1.index t (0 : Fin 2) * 8192 + 1 * j.val = j.val; omega
  | ⟨1, _⟩ => show win1_1.index t (1 : Fin 2) * 512 + 1 * q.val = q.val; omega

theorem iblk1_2_apply (c : Dev nD) (t : Fin cfg1.N) (p : Fin 512) (u : Fin 1) :
    (iblk1 V c 2 t : S512x1.Idx → EReal) (ix2 p u) = Dn V c (512 * (t.val / 4) + p.val) := by
  have hN := N1
  have ht := t.isLt
  obtain ⟨-, -, -, -, e0, e1, -⟩ := idx1_facts t
  have hb : 512 * (t.val / 4) + p.val < 8192 := by have := p.isLt; omega
  unfold Dn
  rw [dif_pos hb]
  show (V c main_v4 : S8192x1.Idx → EReal) (((cfg1.win 2).blk t).view.emb (ix2 p u)) = _
  refine congrArg _ (funext fun a => Fin.ext ?_)
  match a with
  | ⟨0, _⟩ => show win1_2.index t (0 : Fin 2) * 512 + 1 * p.val = 512 * (t.val / 4) + p.val; omega
  | ⟨1, _⟩ => show win1_2.index t (1 : Fin 2) * 1 + 1 * u.val = 0; have := u.isLt; omega

theorem iblk1_3_apply (c : Dev nD) (t : Fin cfg1.N) (u : Fin 1) (q : Fin 512) :
    (iblk1 V c 3 t : S1x512.Idx → EReal) (ix2 u q) = Bn V c q.val := by
  obtain ⟨-, -, -, -, -, -, e0, e1, -⟩ := idx1_facts t
  unfold Bn
  rw [dif_pos q.isLt]
  show (V c main_v10 : S1x512.Idx → EReal) (((cfg1.win 3).blk t).view.emb (ix2 u q)) = _
  refine congrArg _ (funext fun a => Fin.ext ?_)
  match a with
  | ⟨0, _⟩ => show win1_3.index t (0 : Fin 2) * 1 + 1 * u.val = 0; have := u.isLt; omega
  | ⟨1, _⟩ => show win1_3.index t (1 : Fin 2) * 512 + 1 * q.val = q.val; omega

/-- The rows of g the body loads at point t: rows 2048·(t % 4) …. -/
theorem gblk_apply (c : Dev nD) (t : Fin cfg1.N) (l : Fin 2048) (q : Fin 512) :
    (gsl (grid1.coords t) (iblk1 V c 1 t) : S2048x512.Idx → EReal) (ix2 l q) = Gn V c (2048 * (t.val % 4) + l.val) q.val := by
  obtain ⟨-, -, -, -, -, -, -, -, -, -, ek⟩ := idx1_facts t
  rw [gsl_apply, iblk1_1_apply]
  show Gn V c (2048 * (grid1.coords t 1).val + l.val) q.val = _
  rw [ek]

/-- The partial aggregate over the column tiles 0 … k of row tile r, at (p, q). -/
def part1 (c : Dev nD) (r k : ℕ) (p q : ℕ) : EReal :=
  ∑ k' ∈ Finset.range (k + 1), ∑ l : Fin 2048, An V c (512 * r + p) (2048 * k' + l.val) * Gn V c (2048 * k' + l.val) q

/-- THE ACCUMULATOR after point n. -/
theorem acc1_eq (c : Dev nD) : ∀ (n : ℕ) (h : n < cfg1.N) (p q : Fin 512),
    ((outsAt1 V c n h).2 : S512x512.Idx → EReal) (ix2 p q) = part1 V c (n / 4) (n % 4) p.val q.val
  | n, h, p, q => by
    have hN := N1
    by_cases h0 : n % 4 = 0
    · have h1 : ¬n % 4 = 3 := by omega
      rw [outsAt1_A V c ⟨n, h⟩ h0 h1, sout1_A_eq]
      dsimp only
      rw [pay1_2_apply, pay1_1_apply, zero_add]
      unfold part1
      rw [h0, Finset.sum_range_succ, Finset.range_zero, Finset.sum_empty, zero_add]
      refine Finset.sum_congr rfl fun l _ => ?_
      rw [iblk1_0_apply V c ⟨n, h⟩ p l, gblk_apply V c ⟨n, h⟩ l q]
      show An V c (512 * (n / 4) + p.val) (2048 * (n % 4) + l.val) * Gn V c (2048 * (n % 4) + l.val) q.val = _
      rw [h0]
    · have hn : n ≠ 0 := fun e => h0 (by rw [e])
      have hprev : n - 1 < cfg1.N := by omega
      have ih := acc1_eq c (n - 1) hprev p q
      have hd : (n - 1) / 4 = n / 4 := by omega
      have hm : (n - 1) % 4 + 1 = n % 4 := by omega
      have step : ∀ (acc : S512x512.Idx → EReal), acc = (outsAt1 V c (n - 1) hprev).2 →
          k1_pay2 (F := Ideal) (iblk1 V c 0 ⟨n, h⟩) (gsl (grid1.coords ⟨n, h⟩) (iblk1 V c 1 ⟨n, h⟩)) acc (ix2 p q) = part1 V c (n / 4) (n % 4) p.val q.val := by
        intro acc hacc
        rw [pay1_2_apply, hacc, ih, hd]
        have hs : part1 V c (n / 4) (n % 4) p.val q.val = part1 V c (n / 4) ((n - 1) % 4) p.val q.val
            + ∑ l : Fin 2048, An V c (512 * (n / 4) + p.val) (2048 * (n % 4) + l.val) * Gn V c (2048 * (n % 4) + l.val) q.val := by
          unfold part1
          rw [← hm, Finset.sum_range_succ]
        rw [hs]
        refine congrArg _ (Finset.sum_congr rfl fun l _ => ?_)
        rw [iblk1_0_apply V c ⟨n, h⟩ p l, gblk_apply V c ⟨n, h⟩ l q]
      by_cases h1 : n % 4 = 3
      · rw [outsAt1_C V c ⟨n, h⟩ h0 h1, sout1_C_eq]
        dsimp only
        exact step _ rfl
      · rw [outsAt1_B V c ⟨n, h⟩ h0 h1, sout1_B_eq]
        dsimp only
        exact step _ rfl
  termination_by n => n
  decreasing_by omega

/-- THE OUTPUT BLOCK after a last-column-tile point: row factor · the whole aggregate + bias. -/
theorem out1_eq (c : Dev nD) (n : ℕ) (h : n < cfg1.N) (h3 : n % 4 = 3) (p q : Fin 512) :
    ((outsAt1 V c n h).1 : S512x512.Idx → EReal) (ix2 p q)
      = Dn V c (512 * (n / 4) + p.val) * part1 V c (n / 4) 3 p.val q.val + Bn V c q.val := by
  have hN := N1
  have h0 : ¬n % 4 = 0 := by omega
  have e2 : ((outsAt1 V c n h).1 : S512x512.Idx → EReal)
      = k1_pay3 (F := Ideal) (iblk1 V c 2 ⟨n, h⟩) (outsAt1 V c n h).2 (iblk1 V c 3 ⟨n, h⟩) := by
    rw [outsAt1_C V c ⟨n, h⟩ h0 h3, out1_C_eq, sout1_C_eq]
  rw [e2, pay1_3_apply, acc1_eq V c n h p q, h3, iblk1_2_apply V c ⟨n, h⟩ p, iblk1_3_apply V c ⟨n, h⟩ _ q]

/-- The result array of the aggregation kernel. -/
def G1 (c : Dev nD) : S8192x512.Idx → EReal := fun idx =>
  Dn V c (idx 0).val * part1 V c 0 3 (idx 0).val (idx 1).val + Bn V c (idx 1).val

theorem part1_row (c : Dev nD) (r k p q : ℕ) : part1 V c r k p q = part1 V c 0 k (512 * r + p) q := by
  unfold part1; simp only [Nat.mul_zero, Nat.zero_add]

/-- WHAT A FLUSHING POINT WRITES BACK is its block of `G1`. -/
theorem flushed1_eq (c : Dev nD) (t : Fin cfg1.N) (hf : (cfg1.win 4).flush t = true) :
    (dat1 V c).flushed 4 t = ((cfg1.win 4).blk t).view.read (Elt Ideal) (G1 V c) := by
  have h3 : t.val % 4 = 3 := (flush1_4 t).mp hf
  obtain ⟨-, -, -, -, -, -, -, -, e2, e3, -⟩ := idx1_facts t
  show (cfg1.win 4).cut (grid1.coords t) ((dat1 V c).after 4 t) = _
  rw [after1_4]
  funext j
  obtain ⟨p, q, rfl⟩ : ∃ (p : Fin 512) (q : Fin 512), j = ix2 p q := ⟨j 0, j 1, eq_ix2 j⟩
  show ((outsAt1 V c t.val t.isLt).1 : S512x512.Idx → EReal) (ix2 p q) = G1 V c (((cfg1.win 4).blk t).view.emb (ix2 p q))
  rw [out1_eq V c t.val t.isLt h3 p q, part1_row]
  have ea : ((((cfg1.win 4).blk t).view.emb (ix2 p q)) 0).val = 512 * (t.val / 4) + p.val := by
    show win1_4.index t (0 : Fin 2) * 512 + 1 * p.val = _; omega
  have eb : ((((cfg1.win 4).blk t).view.emb (ix2 p q)) 1).val = q.val := by
    show win1_4.index t (1 : Fin 2) * 512 + 1 * q.val = _; omega
  unfold G1
  rw [ea, eb]

theorem mem_blk1 (t : Fin cfg1.N) (i : S8192x512.Idx) :
    i ∈ ((cfg1.win 4).blk t).view.set ↔ ∀ a : Fin 2, win1_4.index t a * S512x512.size a ≤ (i a).val ∧ (i a).val < win1_4.index t a * S512x512.size a + S512x512.size a := by
  show i ∈ ((View.whole main_v11).slice (win1_4.rect t)).set ↔ _
  rw [View.set_slice_whole, Rect.mem_set_unit]
  exact Iff.rfl

/-- Every row of the result is written back by the last column tile of its row tile. -/
theorem cover1 (i : S8192x512.Idx) : ∃ t : Fin cfg1.N, (cfg1.win 4).flush t = true ∧ i ∈ ((cfg1.win 4).blk t).view.set := by
  have hN := N1
  have hi0 : (i 0).val < 8192 := (i 0).isLt
  have hi1 : (i 1).val < 512 := (i 1).isLt
  let t : Fin cfg1.N := ⟨4 * ((i 0).val / 512) + 3, by omega⟩
  have htv : t.val = 4 * ((i 0).val / 512) + 3 := rfl
  obtain ⟨-, -, -, -, -, -, -, -, e2, e3, -⟩ := idx1_facts t
  refine ⟨t, (flush1_4 t).mpr (by omega), ?_⟩
  rw [mem_blk1]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 512 ≤ (i 1).val ∧ (i 1).val < win1_4.index t (1 : Fin 2) * 512 + 512; omega

/-- THE RESULT ARRAY of the aggregation kernel after its region. -/
theorem final1 (c : Dev nD) : (dat1 V c).arrAt 4 cfg1.N = G1 V c :=
  (dat1 V c).arrAt_eq_of_cover 4 (G1 V c) (fun t hf => flushed1_eq V c t hf) (cover1)

end Cert.KernelIdeal.Val

end
-- ==== Proof.HostStage.lean ====
/-
  The host operations between the two kernels, as functions of the buffers they read, and those functions read at
  one index over the extended reals.

  Between the degree kernel and the layer kernel the program computes, on the host: the normalising factors
  (degree + a small constant) ^ (an exponent), elementwise on the column of degrees; the projected, pre-scaled
  features — each row of the features scaled by its factor, multiplied by the transposed weight, narrowed to the
  16-bit format the layer kernel reads — ; and the bias viewed as one row. `after_…` name what those twelve
  operations leave in each buffer the layer kernel reads, for any float values; `…_apply` read the three functions
  at an index at the ideal values, where the narrowing is the identity, the power is the extended reals' and the
  product with the transposed weight is a sum over the 512 input features.
-/
import proofs.«151604_j6854767805296_2_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Host

open Cert.KernelIdeal Cert.KernelIdeal.Gen Idealize.ShloMosaic Idealize.ShloMosaic.ValueIdx Idealize.ShloMosaic.TcCoe
open Idealize.SL.Sem Idealize.ShloMosaic.StableHlo
open scoped BigOperators

variable {F : FTy → Type} [FloatOps F]

/-! ### The three stages, for any float values -/

/-- The normalising factors from the column of degrees: (degree + ε) ^ (−1/2), the two constants as the program spells
    them. -/
def disOf (v0 : FVec F S8192x1 .f32) : FVec F S8192x1 .f32 :=
  Host.powf (addf v0 (broadcastInDim S8192x1 ![] bcast_S_S8192x1 (constant (F := F) S_ .f32 0x322BCC77#32)))
    (broadcastInDim S8192x1 ![] bcast_S_S8192x1 (constant (F := F) S_ .f32 0xBF000000#32))

/-- The projected, pre-scaled features: rows of `x` scaled by `d`, times the transposed weight, in the 16-bit format. -/
def gOf (d : FVec F S8192x1 .f32) (x : FVec F S8192x512 .f32) (w : FVec F S512x512 .f32) : FVec F S8192x512 .bf16 :=
  truncf .bf16 (Host.dotGeneral dot_S8192x512_S512x512_S8192x512_1_0_0_1_n_n none
    (mulf (broadcastInDim S8192x512 ![0, 1] bcast_S8192x1_S8192x512_0_1 d) x)
    (transpose S512x512 [1, 0] w transposes_S512x512_S512x512_1_0)) bitsLt_bf16_f32

/-- The bias viewed as one row. -/
def bOf (b : FVec F S512 .f32) : FVec F S1x512 .f32 := shapeCast S1x512 b shapeCasts_S512_S1x512

theorem after_main_v4 (W : Valuation τ sig (Elt F)) :
    StableHlo.after hostOps1 W (Proc.devRef .tc main_v4) = disOf (W (Proc.devRef .tc main_v0)) := by
  dsimp only [hostOps1]
  after_results
  rfl

theorem after_main_v9 (W : Valuation τ sig (Elt F)) :
    StableHlo.after hostOps1 W (Proc.devRef .tc main_v9)
      = gOf (disOf (W (Proc.devRef .tc main_v0))) (W (Proc.devRef .tc main_arg0)) (W (Proc.devRef .tc main_arg2)) := by
  dsimp only [hostOps1]
  after_results
  rfl

theorem after_main_v10 (W : Valuation τ sig (Elt F)) :
    StableHlo.after hostOps1 W (Proc.devRef .tc main_v10) = bOf (W (Proc.devRef .tc main_arg3)) := by
  dsimp only [hostOps1]
  after_results
  rfl

theorem after_main_v0 (W : Valuation τ sig (Elt F)) :
    StableHlo.after hostOps1 W (Proc.devRef .tc main_v0) = W (Proc.devRef .tc main_v0) := by
  dsimp only [hostOps1]
  after_results

theorem after_main_arg1 (W : Valuation τ sig (Elt F)) :
    StableHlo.after hostOps1 W (Proc.devRef .tc main_arg1) = W (Proc.devRef .tc main_arg1) := by
  dsimp only [hostOps1]
  after_results

/-! ### Layout forms: a scalar spread over a column, a column spread over the columns -/

/-- A scalar broadcast to the column of 8192 reads the scalar everywhere. -/
theorem bcast_scalar_apply {α : Type} (c : S_.Idx → α) (j : S8192x1.Idx) :
    broadcastInDim S8192x1 ![] bcast_S_S8192x1 c j = c ix0 :=
  broadcastInDim_apply _ bcast_S_S8192x1 c j ix0 (fun a => a.elim0)

/-- The column of 8192 broadcast along the 512 columns reads, at `(j, k)`, the column's entry of row `j`. -/
theorem bcast_column_apply {α : Type} (d : S8192x1.Idx → α) (j : Fin 8192) (k : Fin 512) :
    broadcastInDim S8192x512 ![0, 1] bcast_S8192x1_S8192x512_0_1 d (ix2 j k) = d (ix2 j (0 : Fin 1)) :=
  broadcastInDim_apply _ bcast_S8192x1_S8192x512_0_1 d (ix2 j k) (ix2 j (0 : Fin 1)) (fun a => match a with
    | ⟨0, _⟩ => by show j.val = if (8192 : Nat) = 1 then 0 else j.val; rw [if_neg (by decide)]
    | ⟨1, _⟩ => by show 0 = if (1 : Nat) = 1 then 0 else k.val; rw [if_pos rfl])

/-! ### The three stages at an index, at the ideal values -/

theorem disOf_apply (v0 : FVec Ideal S8192x1 .f32) (i : Fin 8192) (q : Fin 1) :
    disOf v0 (ix2 i q)
      = Ideal.pow (v0 (ix2 i q) + Ideal.ofBits .f32 0x322BCC77#32) (Ideal.ofBits .f32 0xBF000000#32) := by
  have e1 := bcast_scalar_apply (constant (F := Ideal) S_ .f32 0x322BCC77#32) (ix2 i q)
  have e2 := bcast_scalar_apply (constant (F := Ideal) S_ .f32 0xBF000000#32) (ix2 i q)
  unfold disOf
  show Ideal.pow (v0 (ix2 i q) + _) _ = _
  rw [e1, e2]
  rfl

/-! The operand indices of the product with the transposed weight, at an output index and a contraction index. -/

theorem lhs_0 (i : S8192x512.Idx) (k : dot_S8192x512_S512x512_S8192x512_1_0_0_1_n_n.contr.Idx) :
    (dot_S8192x512_S512x512_S8192x512_1_0_0_1_n_n.lhsIdx i k 0).val = (i 0).val := by
  unfold DotDims.lhsIdx
  rw [dif_neg (show ¬(0 : Fin S8192x512.rank) ∈ dot_S8192x512_S512x512_S8192x512_1_0_0_1_n_n.lhsBatch by decide),
    dif_pos (show (0 : Fin S8192x512.rank) ∈ dot_S8192x512_S512x512_S8192x512_1_0_0_1_n_n.lhsNonContracting by decide)]
  rfl
theorem lhs_1 (i : S8192x512.Idx) (k : dot_S8192x512_S512x512_S8192x512_1_0_0_1_n_n.contr.Idx) :
    (dot_S8192x512_S512x512_S8192x512_1_0_0_1_n_n.lhsIdx i k 1).val = (k ⟨0, by decide⟩).val :=
  dot_S8192x512_S512x512_S8192x512_1_0_0_1_n_n.lhsIdx_val_of_single rfl i k
theorem rhs_0 (i : S8192x512.Idx) (k : dot_S8192x512_S512x512_S8192x512_1_0_0_1_n_n.contr.Idx) :
    (dot_S8192x512_S512x512_S8192x512_1_0_0_1_n_n.rhsIdx i k 0).val = (k ⟨0, by decide⟩).val :=
  dot_S8192x512_S512x512_S8192x512_1_0_0_1_n_n.rhsIdx_val_of_single rfl i k
theorem rhs_1 (i : S8192x512.Idx) (k : dot_S8192x512_S512x512_S8192x512_1_0_0_1_n_n.contr.Idx) :
    (dot_S8192x512_S512x512_S8192x512_1_0_0_1_n_n.rhsIdx i k 1).val = (i 1).val := by
  unfold DotDims.rhsIdx
  rw [dif_neg (show ¬(1 : Fin S512x512.rank) ∈ dot_S8192x512_S512x512_S8192x512_1_0_0_1_n_n.rhsBatch by decide),
    dif_pos (show (1 : Fin S512x512.rank) ∈ dot_S8192x512_S512x512_S8192x512_1_0_0_1_n_n.rhsNonContracting by decide)]
  rfl

/-- The host's product at `(j, o)`: the sum over the 512 shared coordinates. -/
theorem dotGeneral_apply_ix (lhs : FVec Ideal S8192x512 .f32) (rhs : FVec Ideal S512x512 .f32) (j : Fin 8192) (o : Fin 512) :
    Host.dotGeneral dot_S8192x512_S512x512_S8192x512_1_0_0_1_n_n none lhs rhs (ix2 j o) = ∑ k : Fin 512, lhs (ix2 j k) * rhs (ix2 k o) := by
  simp only [Host.dotGeneral]
  rw [Ideal.dotGeneral_apply, ← Equiv.sum_comp (contrEquiv1 dot_S8192x512_S512x512_S8192x512_1_0_0_1_n_n 512 rfl rfl).symm]
  refine Finset.sum_congr rfl fun k _ => ?_
  have hk := contrEquiv1_symm_val dot_S8192x512_S512x512_S8192x512_1_0_0_1_n_n 512 rfl rfl k
  have el : dot_S8192x512_S512x512_S8192x512_1_0_0_1_n_n.lhsIdx (ix2 j o) ((contrEquiv1 dot_S8192x512_S512x512_S8192x512_1_0_0_1_n_n 512 rfl rfl).symm k) = ix2 j k :=
    funext fun a => Fin.ext (by
      match a with
      | ⟨0, _⟩ => exact lhs_0 _ _
      | ⟨1, _⟩ => exact (lhs_1 _ _).trans hk)
  have er : dot_S8192x512_S512x512_S8192x512_1_0_0_1_n_n.rhsIdx (ix2 j o) ((contrEquiv1 dot_S8192x512_S512x512_S8192x512_1_0_0_1_n_n 512 rfl rfl).symm k) = ix2 k o :=
    funext fun a => Fin.ext (by
      match a with
      | ⟨0, _⟩ => exact (rhs_0 _ _).trans hk
      | ⟨1, _⟩ => exact rhs_1 _ _)
  rw [el, er]

theorem gOf_apply (d : FVec Ideal S8192x1 .f32) (x : FVec Ideal S8192x512 .f32) (w : FVec Ideal S512x512 .f32)
    (j : Fin 8192) (o : Fin 512) :
    gOf d x w (ix2 j o) = ∑ k : Fin 512, (d (ix2 j (0 : Fin 1)) * x (ix2 j k)) * w (ix2 o k) := by
  unfold gOf
  rw [truncf_apply, dotGeneral_apply_ix]
  refine Finset.sum_congr rfl fun k _ => ?_
  rw [mulf_apply, bcast_column_apply, transpose_ix2_apply]

theorem bOf_apply (b : FVec Ideal S512 .f32) (z : Fin 1) (o : Fin 512) : bOf b (ix2 z o) = b (ix1 o) := by
  unfold bOf
  exact shapeCast_a_1a_apply b shapeCasts_S512_S1x512 z o

end Cert.KernelIdeal.Host

end
-- ==== Proof.KernelIdealFr.Result.lean ====
/-
  The kernel's result as the closed form `Cert.Spec.outK` of the argument arrays, at the ideal instance.

  Between the two kernels the host turns the degrees into the row factors d i = (deg i + e) ^ h, forms the projected
  features g j o = Σ_k (d j · X j k) · W o k, and reshapes the bias; the adjacency matrix is untouched. Substituting
  these — and the degree kernel's result, row degrees in block order — into what the aggregation kernel leaves gives
  d i · (Σ over the four column tiles Σ_l A i (blk k l) · g (blk k l) o) + b o.
-/
import proofs.«151604_j6854767805296_2_alg».proof.Proof.KernelIdealFr.Assemble
import proofs.«151604_j6854767805296_2_alg».proof.Proof.KernelIdealFr.Value1
import proofs.«151604_j6854767805296_2_alg».proof.Proof.HostStage

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

/-! ## The four arrays read through a named function -/

section
variable (V : (c : Dev nD) → (b : Ref sig .tc) → Buf (Elt Ideal) ((c : Thread nD τ).loc b)) (c : Dev nD)

theorem An_of (f : S8192x8192.Idx → EReal) (hV : (V c main_arg1 : S8192x8192.Idx → EReal) = f) (i j : ℕ) (h : i < 8192 ∧ j < 8192) :
    An V c i j = f (ix2 ⟨i, h.1⟩ ⟨j, h.2⟩) := by
  unfold An; rw [dif_pos h, hV]
theorem Gn_of (f : S8192x512.Idx → EReal) (hV : (V c main_v9 : S8192x512.Idx → EReal) = f) (j o : ℕ) (h : j < 8192 ∧ o < 512) :
    Gn V c j o = f (ix2 ⟨j, h.1⟩ ⟨o, h.2⟩) := by
  unfold Gn; rw [dif_pos h, hV]
theorem Dn_of (f : S8192x1.Idx → EReal) (hV : (V c main_v4 : S8192x1.Idx → EReal) = f) (i : ℕ) (h : i < 8192) :
    Dn V c i = f (ix2 ⟨i, h⟩ (0 : Fin 1)) := by
  unfold Dn; rw [dif_pos h, hV]
theorem Bn_of (f : S1x512.Idx → EReal) (hV : (V c main_v10 : S1x512.Idx → EReal) = f) (o : ℕ) (h : o < 512) :
    Bn V c o = f (ix2 (0 : Fin 1) ⟨o, h⟩) := by
  unfold Bn; rw [dif_pos h, hV]
end

variable (m : (ℓ : Loc nD τ sig) → Buf (Elt Ideal) ℓ) (c : Dev nD)

/-- The argument arrays' entries. -/
abbrev A_ : Fin 8192 → Fin 8192 → EReal := fun i j => (m ((c : Thread nD τ).loc main_arg1) : S8192x8192.Idx → EReal) (ix2 i j)
abbrev X_ : Fin 8192 → Fin 512 → EReal := fun j k => (m ((c : Thread nD τ).loc main_arg0) : S8192x512.Idx → EReal) (ix2 j k)
abbrev Wt_ : Fin 512 → Fin 512 → EReal := fun o k => (m ((c : Thread nD τ).loc main_arg2) : S512x512.Idx → EReal) (ix2 o k)
abbrev B_ : Fin 512 → EReal := fun o => (m ((c : Thread nD τ).loc main_arg3) : S512.Idx → EReal) (ix1 o)
abbrev eps : EReal := Ideal.ofBits .f32 0x322BCC77#32
abbrev half : EReal := Ideal.ofBits .f32 0xBF000000#32

/-! ## The buffers after the first region and after the host stretch -/

/-- The degree kernel's result buffer after its region: row degrees in block order. -/
theorem W1_v0 : (W1 m c (Proc.devRef .tc main_v0) : S8192x1.Idx → EReal) = G0 (V0 m) c :=
  (W1_arr m c 1).trans (final0 (V0 m) c)
theorem W1_arg0 : (W1 m c (Proc.devRef .tc main_arg0) : S8192x512.Idx → EReal) = m ((c : Thread nD τ).loc main_arg0) :=
  (W1_of_ne m c main_arg0 (by decide)).trans rfl
theorem W1_arg2 : (W1 m c (Proc.devRef .tc main_arg2) : S512x512.Idx → EReal) = m ((c : Thread nD τ).loc main_arg2) :=
  (W1_of_ne m c main_arg2 (by decide)).trans rfl
theorem W1_arg3 : (W1 m c (Proc.devRef .tc main_arg3) : S512.Idx → EReal) = m ((c : Thread nD τ).loc main_arg3) :=
  (W1_of_ne m c main_arg3 (by decide)).trans rfl

/-- Row i's degree as the degree kernel leaves it. -/
theorem deg_eq (i : Fin 8192) (q : Fin 1) : (W1 m c (Proc.devRef .tc main_v0) : S8192x1.Idx → EReal) (ix2 i q) = Cert.Spec.degK (A_ m c) i := by
  rw [W1_v0, G0_apply]

/-- The row factors after the host stretch. -/
theorem dis_eq (i : Fin 8192) (q : Fin 1) :
    (Host.disOf (F := Ideal) (W1 m c (Proc.devRef .tc main_v0)) : S8192x1.Idx → EReal) (ix2 i q) = Cert.Spec.disK (A_ m c) eps half i := by
  rw [Host.disOf_apply, deg_eq]; rfl

theorem V2_v4 : (V2 m c main_v4 : S8192x1.Idx → EReal) = Host.disOf (F := Ideal) (W1 m c (Proc.devRef .tc main_v0)) :=
  Host.after_main_v4 (W1 m c)
theorem V2_v9 : (V2 m c main_v9 : S8192x512.Idx → EReal)
    = Host.gOf (F := Ideal) (Host.disOf (F := Ideal) (W1 m c (Proc.devRef .tc main_v0))) (W1 m c (Proc.devRef .tc main_arg0)) (W1 m c (Proc.devRef .tc main_arg2)) :=
  Host.after_main_v9 (W1 m c)
theorem V2_v10 : (V2 m c main_v10 : S1x512.Idx → EReal) = Host.bOf (F := Ideal) (W1 m c (Proc.devRef .tc main_arg3)) :=
  Host.after_main_v10 (W1 m c)
theorem V2_arg1 : (V2 m c main_arg1 : S8192x8192.Idx → EReal) = m ((c : Thread nD τ).loc main_arg1) :=
  W2_main_arg1 m c

/-- The projected features after the host stretch. -/
theorem g_eq (j : Fin 8192) (o : Fin 512) :
    (Host.gOf (F := Ideal) (Host.disOf (F := Ideal) (W1 m c (Proc.devRef .tc main_v0))) (W1 m c (Proc.devRef .tc main_arg0)) (W1 m c (Proc.devRef .tc main_arg2)) : S8192x512.Idx → EReal) (ix2 j o)
      = Cert.Spec.gK (A_ m c) (X_ m c) (Wt_ m c) eps half j o := by
  rw [Host.gOf_apply]
  unfold Cert.Spec.gK
  refine Finset.sum_congr rfl fun k _ => ?_
  rw [dis_eq, W1_arg0, W1_arg2]

/-! ## The result -/

/-- THE RESULT ARRAY of the program, entry by entry. -/
theorem result_apply (i : Fin 8192) (o : Fin 512) :
    G1 (V2 m) c (ix2 i o) = Cert.Spec.outK (A_ m c) (X_ m c) (Wt_ m c) (B_ m c) eps half i o := by
  unfold G1 Cert.Spec.outK
  show Dn (V2 m) c i.val * part1 (V2 m) c 0 3 i.val o.val + Bn (V2 m) c o.val = _
  rw [Dn_of (V2 m) c _ (V2_v4 m c) i.val i.isLt, Bn_of (V2 m) c _ (V2_v10 m c) o.val o.isLt, dis_eq, Host.bOf_apply, W1_arg3]
  refine congrArg (fun s => Cert.Spec.disK (A_ m c) eps half i * s + B_ m c o) ?_
  unfold part1
  rw [Finset.sum_range (fun k' => ∑ l : Fin 2048, An (V2 m) c (512 * 0 + i.val) (2048 * k' + l.val) * Gn (V2 m) c (2048 * k' + l.val) o.val)]
  refine Finset.sum_congr rfl fun k _ => Finset.sum_congr rfl fun l _ => ?_
  have hk := k.isLt
  have hl := l.isLt
  have hi := i.isLt
  have hb : 512 * 0 + i.val < 8192 ∧ 2048 * k.val + l.val < 8192 := by omega
  rw [An_of (V2 m) c _ (V2_arg1 m c) _ _ hb, Gn_of (V2 m) c _ (V2_v9 m c) _ _ ⟨hb.2, o.isLt⟩]
  have e1 : (⟨512 * 0 + i.val, hb.1⟩ : Fin 8192) = i := Fin.ext (by show 512 * 0 + i.val = i.val; omega)
  have e2 : (⟨2048 * k.val + l.val, hb.2⟩ : Fin 8192) = Cert.Spec.blk k l := Fin.ext rfl
  have e3 : (⟨o.val, o.isLt⟩ : Fin 512) = o := rfl
  rw [e1, e2, e3, g_eq]

/-- The program's result buffer, as a function of its index. -/
def result : S8192x512.Idx → EReal := fun idx =>
  Cert.Spec.outK (A_ m c) (X_ m c) (Wt_ m c) (B_ m c) eps half ⟨(idx 0).val, (idx 0).isLt⟩ ⟨(idx 1).val, (idx 1).isLt⟩

theorem final_result : (dat1 (V2 m) c).arrAt 4 cfg1.N = result m c := by
  rw [final1]
  funext idx
  obtain ⟨i, o, rfl⟩ : ∃ (i : Fin 8192) (o : Fin 512), idx = ix2 i o := ⟨idx 0, idx 1, eq_ix2 idx⟩
  exact result_apply m c i o

end Cert.KernelIdeal.Val

end
-- ==== Proof.RefValue.lean ====
/-
  The reference's result, read index by index: every entry of the reference's output is the closed form
  `Cert.Spec.outR` of the argument arrays' entries.

  The reference computes, stage by stage: the row sums of the adjacency matrix (started from the zero word), the
  normalising factor (row sum + e) ^ h, the adjacency matrix scaled by that factor on its row and then on its column,
  the product of the scaled matrix with the features, the product of that with the transposed weight, and the bias
  added to every row. Each lemma below reads one of these stages at an index given by its coordinates.
-/
import proofs.«151604_j6854767805296_2_alg».proof.Proof.Gen.ReferenceIdeal.Run
import proofs.«151604_j6854767805296_2_alg».proof.Proof.Gen.ReferenceIdeal.Read
import proofs.«151604_j6854767805296_2_alg».proof.Proof.Spec
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Gen Cert.ReferenceIdeal.Read Idealize.ShloMosaic Idealize.ShloMosaic.ValueIdx
open scoped BigOperators

/-- The small constant added to a row's degree, as the program's word. -/
local notation "eps" => Ideal.ofBits FTy.f32 0x322BCC77#32
/-- The exponent of the normalising factor, as the program's word. -/
local notation "hexp" => Ideal.ofBits FTy.f32 0xBF000000#32

section
variable (x0 : (⟨2, ![8192, 512]⟩ : Shape).Idx → EReal) (x1 : (⟨2, ![8192, 8192]⟩ : Shape).Idx → EReal)
  (x2 : (⟨2, ![512, 512]⟩ : Shape).Idx → EReal) (x3 : (⟨1, ![512]⟩ : Shape).Idx → EReal)

/-- The normalising factor of row `i`: the row sum starts from the zero word, which is 0, so it is the plain sum of the row;
    the constant is added and the power taken. -/
theorem dis_eq (i : Fin 8192) :
    val_main_v4 (F := Ideal) x1 (ix1 i)
      = Cert.Spec.disR (fun i j => x1 (ix2 i j)) eps hexp i := by
  have e0 : ∀ k : Fin 8192, idx_main_v0 (ix1 i) k = ix2 i k := fun k =>
    funext fun a => Fin.ext (by match a with | ⟨0, _⟩ => rfl | ⟨1, _⟩ => rfl)
  rw [val_main_v4_apply, val_main_v2_apply, val_main_v0_apply, val_main_v1_apply, val_main_v3_apply,
    val_main_cst_apply, val_main_cst_0_apply, val_main_cst_1_apply]
  simp only [Ideal.hostPowf_def, Ideal.addf_def, Ideal.ofBits_def, Ideal.ofBits_zero_f32, zero_add, e0]
  rfl

/-- The scaled adjacency matrix at `[i, j]`: the row's factor times the entry, times the column's factor. -/
theorem scaled_eq (i j : Fin 8192) :
    val_main_v10 (F := Ideal) x1 (ix2 i j)
      = (Cert.Spec.disR (fun i j => x1 (ix2 i j)) eps hexp i * x1 (ix2 i j))
          * Cert.Spec.disR (fun i j => x1 (ix2 i j)) eps hexp j := by
  have er : idx_main_v5 (idx_main_v6 (ix2 i j)) = ix1 i :=
    funext fun a => Fin.ext (by match a with | ⟨0, _⟩ => rfl)
  have ec : idx_main_v8 (idx_main_v9 (ix2 i j)) = ix1 j :=
    funext fun a => Fin.ext (by match a with | ⟨0, _⟩ => rfl)
  rw [val_main_v10_apply, val_main_v7_apply, val_main_v6_apply, val_main_v5_apply, val_main_v9_apply,
    val_main_v8_apply, er, ec, dis_eq, dis_eq]
  simp only [Ideal.mulf_def]

/-- The scaled matrix times the features, at `[i, k]`. -/
theorem aggregated_eq (i : Fin 8192) (k : Fin 512) :
    val_main_v11 (F := Ideal) x0 x1 (ix2 i k)
      = ∑ j : Fin 8192, ((Cert.Spec.disR (fun i j => x1 (ix2 i j)) eps hexp i * x1 (ix2 i j))
          * Cert.Spec.disR (fun i j => x1 (ix2 i j)) eps hexp j) * x0 (ix2 j k) := by
  rw [val_main_v11_apply]
  refine Finset.sum_congr rfl fun j _ => ?_
  have el : lidx_main_v11 (ix2 i k) j = ix2 i j :=
    funext fun a => Fin.ext (by match a with | ⟨0, _⟩ => rfl | ⟨1, _⟩ => rfl)
  have er : ridx_main_v11 (ix2 i k) j = ix2 j k :=
    funext fun a => Fin.ext (by match a with | ⟨0, _⟩ => rfl | ⟨1, _⟩ => rfl)
  rw [el, er, scaled_eq]

/-- The projection by the transposed weight, at `[i, o]`: the transpose's entry `[k, o]` is the weight's `[o, k]`. -/
theorem projected_eq (i : Fin 8192) (o : Fin 512) :
    val_main_v13 (F := Ideal) x0 x1 x2 (ix2 i o)
      = ∑ k : Fin 512, (∑ j : Fin 8192, ((Cert.Spec.disR (fun i j => x1 (ix2 i j)) eps hexp i * x1 (ix2 i j))
          * Cert.Spec.disR (fun i j => x1 (ix2 i j)) eps hexp j) * x0 (ix2 j k)) * x2 (ix2 o k) := by
  rw [val_main_v13_apply]
  refine Finset.sum_congr rfl fun k _ => ?_
  have el : lidx_main_v13 (ix2 i o) k = ix2 i k :=
    funext fun a => Fin.ext (by match a with | ⟨0, _⟩ => rfl | ⟨1, _⟩ => rfl)
  have er : idx_main_v12 (ridx_main_v13 (ix2 i o) k) = ix2 o k :=
    funext fun a => Fin.ext (by match a with | ⟨0, _⟩ => rfl | ⟨1, _⟩ => rfl)
  rw [val_main_v12_apply, el, er, aggregated_eq]

/-- The bias, broadcast over the rows, at `[i, o]`. -/
theorem bias_eq (i : Fin 8192) (o : Fin 512) :
    val_main_v15 (F := Ideal) x3 (ix2 i o) = x3 (ix1 o) := by
  have e : idx_main_v14 (idx_main_v15 (ix2 i o)) = ix1 o :=
    funext fun a => Fin.ext (by match a with | ⟨0, _⟩ => rfl)
  rw [val_main_v15_apply, val_main_v14_apply, e]

/-- Every entry of the reference's result is the reference's closed form of the arguments' entries. -/
theorem result_eq (i : Fin 8192) (o : Fin 512) :
    Cert.ReferenceIdeal.Read.val_main_v16 (F := Ideal) x0 x1 x2 x3 (ValueIdx.ix2 i o)
      = Cert.Spec.outR (fun i j => x1 (ValueIdx.ix2 i j)) (fun j k => x0 (ValueIdx.ix2 j k))
          (fun o k => x2 (ValueIdx.ix2 o k)) (fun o => x3 (ValueIdx.ix1 o))
          (Ideal.ofBits .f32 0x322BCC77#32) (Ideal.ofBits .f32 0xBF000000#32) i o := by
  rw [val_main_v16_apply, projected_eq, bias_eq]
  simp only [Ideal.addf_def]
  rfl

end

end Cert.RefValue

end
-- ==== Proof.Finite.lean ====
/-
  Finiteness of the inputs: the precondition says that the absolute value of every entry of each of the four argument
  arrays is strictly below +∞. An extended real whose absolute value is below +∞ is neither -∞ nor +∞, so it is a
  real number.

  The precondition is a conjunction of four "all entries satisfy" tests, each an and-reduction of the entrywise
  comparison |x| < +∞ down to one bit; the conjunction being 1 gives each test 1, and each test being 1 gives the
  comparison 1 at every entry.
-/
import proofs.«151604_j6854767805296_2_alg».proof.Proof.Gen.Pre_finite_inputs
import proofs.«151604_j6854767805296_2_alg».proof.Pre_finite_inputs
import Idealize.ShloMosaic.Lib.ReduceAll
import Idealize.ShloMosaic.PureOps.Ideal

noncomputable section

namespace Cert.Finite

open Idealize.ShloMosaic Cert.Pre_finite_inputs

/-- The scalar shape has exactly one index. -/
instance : Subsingleton S_.Idx := ⟨fun _ _ => funext fun d => d.elim0⟩

/-- The word of +∞ in single precision (sign 0, exponent all ones, fraction 0) denotes `⊤`. -/
theorem inf_word : Ideal.ofBits .f32 0x7F800000#32 = (⊤ : EReal) := by
  simp [Ideal.ofBits, Ideal.ieee]

/-- An ordered "less than" comparison that answers 1 says the left side is strictly below the right. -/
theorem lt_of_olt {a b : EReal} (h : Ideal.cmp .olt a b = 1#1) : a < b := by
  unfold Ideal.cmp at h
  by_contra hn
  simp [hn] at h

/-- An extended real whose absolute value `max x (-x)` is below `⊤` is a real number: for `⊥` and for `⊤` the
    absolute value is `⊤` itself. -/
theorem real_of_abs_lt_top (x : EReal) (h : max x (-x) < ⊤) : ∃ r : ℝ, x = (r : EReal) := by
  induction x using EReal.rec with
  | bot => simp at h
  | coe r => exact ⟨r, rfl⟩
  | top => simp at h

/-- One entry: the comparison of its absolute value with the word of +∞ answering 1 makes it a real number. -/
theorem real_of_test (x : EReal) (h : Ideal.cmp .olt (max x (-x)) (Ideal.ofBits .f32 0x7F800000#32) = 1#1) :
    ∃ r : ℝ, x = (r : EReal) := by
  rw [inf_word] at h
  exact real_of_abs_lt_top x (lt_of_olt h)

/-- Under the precondition every entry of each of the four argument arrays is a real number. -/
theorem entries_real [Cert.Pre_finite_inputs.Facts] (x0 : FVec Ideal Cert.Pre_finite_inputs.S8192x512 .f32)
    (x1 : FVec Ideal Cert.Pre_finite_inputs.S8192x8192 .f32) (x2 : FVec Ideal Cert.Pre_finite_inputs.S512x512 .f32)
    (x3 : FVec Ideal Cert.Pre_finite_inputs.S512 .f32)
    (h : Cert.Pre_finite_inputs.fn (F := Ideal) x0 x1 x2 x3 = fun _ => 1#1) :
    (∀ j, ∃ r : ℝ, x0 j = (r : EReal)) ∧ (∀ j, ∃ r : ℝ, x1 j = (r : EReal)) ∧ (∀ j, ∃ r : ℝ, x2 j = (r : EReal))
      ∧ (∀ j, ∃ r : ℝ, x3 j = (r : EReal)) := by
  have e := congrFun h (fun a => a.elim0)
  dsimp only [fn, fn_part1, andi] at e
  rw [IntOp.andi_eq_one, IntOp.andi_eq_one, IntOp.andi_eq_one] at e
  obtain ⟨⟨⟨h0, h1⟩, h2⟩, h3⟩ := e
  exact ⟨fun j => real_of_test (x0 j) (Host.reduce_andi_all _ _ _ _ _ h0 j),
    fun j => real_of_test (x1 j) (Host.reduce_andi_all _ _ _ _ _ h1 j),
    fun j => real_of_test (x2 j) (Host.reduce_andi_all _ _ _ _ _ h2 j),
    fun j => real_of_test (x3 j) (Host.reduce_andi_all _ _ _ _ _ h3 j)⟩

end Cert.Finite

end
-- ==== Proof.Algebra.lean ====
/-
  The algebra of the certificate: the kernel's arrangement of the normalised graph-convolution layer and the
  reference's arrangement are the same extended real, entry by entry, when every entry of the adjacency matrix, of
  the features and of the weight, and the two constants, are real numbers.

  Three ingredients.
  * Summing over four column blocks of 2048 is summing over all 8192 columns (`sum_blk`): a reindexing along the
    bijection (k, l) ↦ 2048·k + l, valid in every additive commutative monoid. It identifies the two degrees, hence
    the two normalising factors, and turns the kernel's outer double sum into a single sum.
  * A power of two reals is a real; so is a finite sum, a sum of two, a product of two. Hence every normalising
    factor is a real number, whatever the sign of its base.
  * Among real numbers the rearrangement is distributivity and an exchange of two finite sums (`rearrange_real`);
    the coercion of the reals into the extended reals commutes with finite sums and with products, which carries the
    identity over (`rearrange`).
-/
import proofs.«151604_j6854767805296_2_alg».proof.Proof.Spec

noncomputable section

open Idealize.ShloMosaic
open scoped BigOperators

namespace Cert.Algebra

/-! ### Reindexing: four blocks of 2048 are the 8192 columns -/

/-- The bijection (k, l) ↦ 2048·k + l from pairs (block, column in the block) onto the columns. -/
def blkEquiv : Fin 4 × Fin 2048 ≃ Fin 8192 := finProdFinEquiv.trans (finCongr (by norm_num))

theorem blkEquiv_apply (x : Fin 4 × Fin 2048) : blkEquiv x = Cert.Spec.blk x.1 x.2 := by
  apply Fin.ext
  simp only [blkEquiv, Equiv.trans_apply, finCongr_apply, Fin.coe_cast, finProdFinEquiv_apply_val, Cert.Spec.blk_val]
  omega

/-- A sum taken block by block is the sum over all columns. -/
theorem sum_blk {M : Type*} [AddCommMonoid M] (f : Fin 8192 → M) :
    ∑ k : Fin 4, ∑ l : Fin 2048, f (Cert.Spec.blk k l) = ∑ j : Fin 8192, f j := by
  rw [← Fintype.sum_prod_type' (fun k l => f (Cert.Spec.blk k l))]
  exact Fintype.sum_equiv blkEquiv _ _ (fun x => by rw [blkEquiv_apply])

/-! ### Real numbers inside the extended reals -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp only [Finset.sum_empty, EReal.coe_zero]
  | insert a s ha ih => rw [Finset.sum_insert ha, Finset.sum_insert ha, EReal.coe_add, ih]

theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

theorem add_real {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- A power of two reals is the real power `Real.rpow`: a real number, whatever the sign of the base. -/
theorem pow_real {x y : EReal} (hx : ∃ r : ℝ, x = (r : EReal)) (hy : ∃ r : ℝ, y = (r : EReal)) :
    ∃ r : ℝ, Ideal.pow x y = (r : EReal) := by
  obtain ⟨a, rfl⟩ := hx
  obtain ⟨b, rfl⟩ := hy
  exact ⟨Real.rpow a b, rfl⟩

/-! ### The rearrangement -/

/-- Among real numbers: the factor of the row moves inside both sums, and the two sums are exchanged. -/
theorem rearrange_real {ι κ : Type*} [Fintype ι] [Fintype κ]
    (a d : ι → ℝ) (di : ℝ) (x : ι → κ → ℝ) (w : κ → ℝ) :
    di * ∑ j, a j * ∑ k, (d j * x j k) * w k = ∑ k, (∑ j, ((di * a j) * d j) * x j k) * w k := by
  simp only [Finset.mul_sum, Finset.sum_mul]
  rw [Finset.sum_comm]
  exact Finset.sum_congr rfl fun k _ => Finset.sum_congr rfl fun j _ => by ring

/-- The same among extended reals all of whose terms are real. -/
theorem rearrange {ι κ : Type*} [Fintype ι] [Fintype κ]
    (a D : ι → EReal) (Di : EReal) (X : ι → κ → EReal) (W : κ → EReal)
    (ha : ∀ j, ∃ r : ℝ, a j = (r : EReal)) (hD : ∀ j, ∃ r : ℝ, D j = (r : EReal)) (hDi : ∃ r : ℝ, Di = (r : EReal))
    (hX : ∀ j k, ∃ r : ℝ, X j k = (r : EReal)) (hW : ∀ k, ∃ r : ℝ, W k = (r : EReal)) :
    Di * ∑ j, a j * ∑ k, (D j * X j k) * W k = ∑ k, (∑ j, ((Di * a j) * D j) * X j k) * W k := by
  choose a' ha using ha
  choose d' hD using hD
  obtain ⟨di, rfl⟩ := hDi
  choose x' hX using hX
  choose w' hW using hW
  simp only [ha, hD, hX, hW, ← EReal.coe_mul, ← coe_sum]
  exact congrArg _ (rearrange_real a' d' di x' w')

/-! ### The two arrangements agree -/

theorem degK_eq_degR (A : Fin 8192 → Fin 8192 → EReal) (i : Fin 8192) : Cert.Spec.degK A i = Cert.Spec.degR A i :=
  sum_blk (fun j => A i j)

theorem disK_eq_disR (A : Fin 8192 → Fin 8192 → EReal) (e h : EReal) (i : Fin 8192) :
    Cert.Spec.disK A e h i = Cert.Spec.disR A e h i := by
  unfold Cert.Spec.disK Cert.Spec.disR
  rw [degK_eq_degR]

/-- Every normalising factor is a real number. -/
theorem disR_real (A : Fin 8192 → Fin 8192 → EReal) (e h : EReal) (hA : ∀ i j, ∃ r : ℝ, A i j = (r : EReal))
    (he : ∃ r : ℝ, e = (r : EReal)) (hh : ∃ r : ℝ, h = (r : EReal)) (i : Fin 8192) :
    ∃ r : ℝ, Cert.Spec.disR A e h i = (r : EReal) :=
  pow_real (add_real (sum_real _ _ (hA i)) he) hh

theorem outK_eq_outR
    (A : Fin 8192 → Fin 8192 → EReal) (X : Fin 8192 → Fin 512 → EReal) (Wt : Fin 512 → Fin 512 → EReal)
    (B : Fin 512 → EReal) (e h : EReal)
    (hA : ∀ i j, ∃ r : ℝ, A i j = (r : EReal)) (hX : ∀ j k, ∃ r : ℝ, X j k = (r : EReal))
    (hW : ∀ o k, ∃ r : ℝ, Wt o k = (r : EReal))
    (he : ∃ r : ℝ, e = (r : EReal)) (hh : ∃ r : ℝ, h = (r : EReal)) (i : Fin 8192) (o : Fin 512) :
    Cert.Spec.outK A X Wt B e h i o = Cert.Spec.outR A X Wt B e h i o := by
  have hD := disR_real A e h hA he hh
  unfold Cert.Spec.outK Cert.Spec.outR
  refine congrArg (· + B o) ?_
  rw [sum_blk (fun j => A i j * Cert.Spec.gK A X Wt e h j o)]
  unfold Cert.Spec.gK
  simp only [disK_eq_disR]
  exact rearrange (A i) (Cert.Spec.disR A e h) (Cert.Spec.disR A e h i) X (Wt o) (hA i) hD (hD i) hX (hW o)

/-! ### The two constants are real numbers -/

/-- A pattern whose exponent field is not all ones denotes a real number (zero, a subnormal or a normal). -/
theorem ieee_real (e m : Nat) {w : Nat} (b : BitVec w) (hex : (b.extractLsb' m e).toNat ≠ 2 ^ e - 1) :
    ∃ r : ℝ, Ideal.ieee e m b = (r : EReal) := by
  unfold Ideal.ieee
  simp only [if_neg hex]
  split_ifs <;> exact ⟨_, rfl⟩

theorem eps_real : ∃ r : ℝ, Ideal.ofBits .f32 0x322BCC77#32 = (r : EReal) :=
  ieee_real 8 23 (0x322BCC77#32 : BitVec 32) (by decide)

theorem half_real : ∃ r : ℝ, Ideal.ofBits .f32 0xBF000000#32 = (r : EReal) :=
  ieee_real 8 23 (0xBF000000#32 : BitVec 32) (by decide)

end Cert.Algebra

end
-- ==== Proof.lean ====
/-
  A graph-convolution layer with symmetric normalisation, two kernels against a plain reference.

  With A the 8192 × 8192 adjacency matrix, X the 8192 × 512 features, W the 512 × 512 weight and b the bias:
  deg i = Σ_j A i j,  d i = (deg i + ε) ^ (-1/2),  and the layer is  out = (D A D) X Wᵀ + b  with D = diag d.
  The reference computes it in that order. The program computes the degrees with a first kernel (row sums accumulated
  over four column tiles), forms d and the projected, pre-scaled features g = (D X) Wᵀ on the host, and with a second
  kernel accumulates A g over four column tiles and finishes with  d i · (A g) i o + b o.

  * The frames. Each kernel's region carries its accumulator from one grid point to the next: the region's invariant
    says what the accumulator holds after every point. The program is then three items — region, host stretch, region —
    and every unscoped buffer's final contents are a fold through them; the arguments walk back to the launch memory.
  * The values, at the ideal instance. The accumulators' contents are partial sums (by induction over the grid points), so
    the first kernel leaves the row degrees in block order and the second d i · Σ_blocks Σ_l A i l · g l o + b o.
  * The algebra. Under the precondition every entry of A, X, W is a real number, and so is every d i (a real power of
    a real is a real, whatever the base's sign); among reals the two arrangements agree by distributivity and a change
    of summation order. Over the extended reals distributivity fails at the infinities: the precondition is used.
  No operation of the program is rewritten by the idealization, so `preserves` has nothing to state.
-/
import proofs.«151604_j6854767805296_2_alg».proof.Defs
import proofs.«151604_j6854767805296_2_alg».proof.Proof.Gen.Kernel
import proofs.«151604_j6854767805296_2_alg».proof.Proof.Gen.KernelIdeal
import proofs.«151604_j6854767805296_2_alg».proof.Proof.Gen.ReferenceIdeal
import proofs.«151604_j6854767805296_2_alg».proof.Proof.Gen.Pre_finite_inputs
import proofs.«151604_j6854767805296_2_alg».proof.Proof.Gen.ReferenceIdeal.Run
import proofs.«151604_j6854767805296_2_alg».proof.Proof.Gen.ReferenceIdeal.Read
import proofs.«151604_j6854767805296_2_alg».proof.Proof.KernelFr.Assemble
import proofs.«151604_j6854767805296_2_alg».proof.Proof.KernelIdealFr.Assemble
import proofs.«151604_j6854767805296_2_alg».proof.Proof.KernelIdealFr.Result
import proofs.«151604_j6854767805296_2_alg».proof.Proof.RefValue
import proofs.«151604_j6854767805296_2_alg».proof.Proof.Finite
import proofs.«151604_j6854767805296_2_alg».proof.Proof.Algebra
import Idealize.ShloMosaic.Adequacy
import Idealize.ShloMosaic.Init

noncomputable section

namespace Cert.Proof

open Idealize.ShloMosaic Idealize.ShloMosaic.ValueIdx Idealize.SL.Sem

/-- The word-level program runs to the end, faults nowhere and leaves its arguments as launched. -/
theorem frame_k : Cert.frame_Kernel := fun m ρ _ => Cert.Kernel.Fr.frame m ρ

/-- So does the program read at the ideal instance. -/
theorem frame_ki : Cert.frame_KernelIdeal := fun m ρ _ => Cert.KernelIdeal.Fr.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal instance, from memories agreeing on the arguments, both programs end with the same result: the kernels'
    arrangement `Cert.Spec.outK` and the reference's `Cert.Spec.outR` of the same real entries. -/
theorem algebraic : Cert.algebraic_KernelIdeal_ReferenceIdeal := by
  intro m ρ m' ρ' hpre hagree
  refine ⟨fun c => Cert.KernelIdeal.Val.result m c, ?_, ?_⟩
  · exact (θ_run Cert.KernelIdeal.defs _ _).mono
      (fun _ h c => ⟨(h c).1.trans (Cert.KernelIdeal.Val.final_result m c), (h c).2⟩)
      (Cert.KernelIdeal.Fr.run_result m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    refine (Cert.ReferenceIdeal.Read.val_main_v16_eq _ _ _ _).trans ?_
    obtain ⟨hX, hA, hW, -⟩ := Cert.Finite.entries_real _ _ _ _ (hpre c)
    funext idx
    obtain ⟨i, o, rfl⟩ : ∃ (i : Fin 8192) (o : Fin 512), idx = ix2 i o := ⟨idx 0, idx 1, eq_ix2 idx⟩
    rw [Cert.RefValue.result_eq]
    exact (Cert.Algebra.outK_eq_outR _ _ _ _ _ _ (fun i j => hA _) (fun j k => hX _) (fun o k => hW _)
      Cert.Algebra.eps_real Cert.Algebra.half_real i o).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
